-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v71_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v71_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S33x1 : Shape := ⟨2, ![33, 1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S33x1 : S_.BroadcastsInDim S33x1 (![] : Fin 0 → Fin S33x1.rank)
  reducesTo_S33x1_S_d0_1 : S33x1.ReducesTo [0, 1] S_

variable [Facts]

def fn_part2 {F : FTy → Type} [FloatOps F] (main_arg8 : FVec F S1 .f32) (main_arg9 : FVec F S33x1 .f32) (main_arg10 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S33x1 .f32 := Host.absf main_arg9
  let main_cst_14 : FVec F S_ .f32 := constant S_ .f32 0x7F800000#32
  let main_v40 : FVec F S33x1 .f32 := broadcastInDim S33x1 ![] bcast_S_S33x1 main_cst_14
  let main_v41 : IVec S33x1 1 := cmpf .olt main_v39 main_v40
  let main_c_15 : IVec S_ 1 := constantI S_ 1 1#1
  let main_v42 : IVec S_ 1 := (fun x v => Host.reduce IntOp.andi x v reducesTo_S33x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S32x16 .f32) (main_arg6 : FVec F S16 .f32) (main_arg7 : FVec F S16x1 .f32) (main_arg8 : FVec F S1 .f32) (main_arg9 : FVec F S33x1 .f32) (main_arg10 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x1 .f32 := Host.absf main_arg7
  let main_cst_10 : FVec F S_ .f32 := constant S_ .f32 0x7F800000#32
  let main_v30 : FVec F S16x1 .f32 := broadcastInDim S16x1 ![] bcast_S_S16x1 main_cst_10
  let main_v31 : IVec S16x1 1 := cmpf .olt main_v29 main_v30
  let main_c_11 : IVec S_ 1 := constantI S_ 1 1#1
  let main_v32 : IVec S_ 1 := (fun x v => Host.reduce IntOp.andi x v reducesTo_S16x1_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x3200000 32) (main_arg2 : FVec F S3200000 .f32) (main_arg3 : FVec F S128x32 .f32) (main_arg4 : FVec F S32 .f32) (main_arg5 : FVec F S32x16 .f32) (main_arg6 : FVec F S16 .f32) (main_arg7 : FVec F S16x1 .f32) (main_arg8 : FVec F S1 .f32) (main_arg9 : FVec F S33x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x32 .f32 := Host.absf main_arg3
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S33x1 : Shape := ⟨2, ![33, 1]⟩
abbrev S1x3200000 : Shape := ⟨2, ![1, 3200000]⟩
abbrev S_ : Shape := ⟨0, ![]⟩
abbrev S100000 : Shape := ⟨1, ![100000]⟩
abbrev S3200000x1 : Shape := ⟨2, ![3200000, 1]⟩
abbrev S100000x32 : Shape := ⟨2, ![100000, 32]⟩
abbrev S10000x128 : Shape := ⟨2, ![10000, 128]⟩
abbrev S10000x32 : Shape := ⟨2, ![10000, 32]⟩
abbrev S3200000x32 : Shape := ⟨2, ![3200000, 32]⟩
abbrev S100000x1 : Shape := ⟨2, ![100000, 1]⟩
abbrev S1x32 : Shape := ⟨2, ![1, 32]⟩
abbrev S100000x16 : Shape := ⟨2, ![100000, 16]⟩
abbrev S10000x16 : Shape := ⟨2, ![10000, 16]⟩
abbrev S3200000x16 : Shape := ⟨2, ![3200000, 16]⟩
abbrev S1x16 : Shape := ⟨2, ![1, 16]⟩
abbrev S1x1 : Shape := ⟨2, ![1, 1]⟩
abbrev S32x1 : Shape := ⟨2, ![32, 1]⟩
abbrev S10000x1 : Shape := ⟨2, ![10000, 1]⟩

abbrev nBuf : Space → Nat
  | .hbm => 98
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S33x1, .f32⟩
  | .hbm, ⟨10, _⟩ => ⟨S1, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .f32⟩
  | .hbm, ⟨16, _⟩ => ⟨S100000, .f32⟩
  | .hbm, ⟨17, _⟩ => ⟨S3200000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3200000, .i32⟩
  | .hbm, ⟨25, _⟩ => ⟨S3200000, .i1⟩
  | .hbm, ⟨26, _⟩ => ⟨S_, .i32⟩
  | .hbm, ⟨27, _⟩ => ⟨S3200000, .i32⟩
  | .hbm, ⟨28, _⟩ => ⟨S3200000, .i32⟩
  | .hbm, ⟨29, _⟩ => ⟨S3200000, .i32⟩
  | .hbm, ⟨30, _⟩ => ⟨S3200000x1, .i32⟩
  | .hbm, ⟨31, _⟩ => ⟨S3200000, .f32⟩
  | .hbm, ⟨32, _⟩ => ⟨S3200000, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000, .f32⟩
  | .hbm, ⟨42, _⟩ => ⟨S3200000, .f32⟩
  | .hbm, ⟨43, _⟩ => ⟨S100000x32, .f32⟩
  | .hbm, ⟨44, _⟩ => ⟨S3200000x1, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x32, .f32⟩
  | .hbm, ⟨54, _⟩ => ⟨S3200000x32, .f32⟩
  | .hbm, ⟨55, _⟩ => ⟨S3200000x32, .f32⟩
  | .hbm, ⟨56, _⟩ => ⟨S_, .f32⟩
  | .hbm, ⟨57, _⟩ => ⟨S100000x32, .f32⟩
  | .hbm, ⟨58, _⟩ => ⟨S3200000x1, .i32⟩
  | .hbm, ⟨59, _⟩ => ⟨S100000x32, .f32⟩
  | .hbm, ⟨60, _⟩ => ⟨S100000x1, .f32⟩
  | .hbm, ⟨61, _⟩ => ⟨S100000x32, .f32⟩
  | .hbm, ⟨62, _⟩ => ⟨S100000x32, .f32⟩
  | .hbm, ⟨63, _⟩ => ⟨S100000x32, .f32⟩
  | .hbm, ⟨64, _⟩ => ⟨S1x32, .f32⟩
  | .hbm, ⟨65, _⟩ => ⟨S100000x32, .f32⟩
  | .hbm, ⟨66, _⟩ => ⟨S100000x32, .f32⟩
  | .hbm, ⟨67, _⟩ => ⟨S_, .f32⟩
  | .hbm, ⟨68, _⟩ => ⟨S100000x32, .f32⟩
  | .hbm, ⟨69, _⟩ => ⟨S100000x32, .f32⟩
  | .hbm, ⟨70, _⟩ => ⟨S100000x16, .f32⟩
  | .hbm, ⟨71, _⟩ => ⟨S3200000x1, .f32⟩
  | .hbm, ⟨72, _⟩ => ⟨S_, .i32⟩
  | .hbm, ⟨73, _⟩ => ⟨S3200000, .i32⟩
  | .hbm, ⟨74, _⟩ => ⟨S3200000, .i1⟩
  | .hbm, ⟨75, _⟩ => ⟨S_, .i32⟩
  | .hbm, ⟨76, _⟩ => ⟨S3200000, .i32⟩
  | .hbm, ⟨77, _⟩ => ⟨S3200000, .i32⟩
  | .hbm, ⟨78, _⟩ => ⟨S3200000, .i32⟩
  | .hbm, ⟨79, _⟩ => ⟨S3200000x1, .i32⟩
  | .hbm, ⟨80, _⟩ => ⟨S3200000x16, .f32⟩
  | .hbm, ⟨81, _⟩ => ⟨S3200000x16, .f32⟩
  | .hbm, ⟨82, _⟩ => ⟨S3200000x16, .f32⟩
  | .hbm, ⟨83, _⟩ => ⟨S_, .f32⟩
  | .hbm, ⟨84, _⟩ => ⟨S100000x16, .f32⟩
  | .hbm, ⟨85, _⟩ => ⟨S3200000x1, .i32⟩
  | .hbm, ⟨86, _⟩ => ⟨S100000x16, .f32⟩
  | .hbm, ⟨87, _⟩ => ⟨S100000x1, .f32⟩
  | .hbm, ⟨88, _⟩ => ⟨S100000x16, .f32⟩
  | .hbm, ⟨89, _⟩ => ⟨S100000x16, .f32⟩
  | .hbm, ⟨90, _⟩ => ⟨S100000x16, .f32⟩
  | .hbm, ⟨91, _⟩ => ⟨S1x16, .f32⟩
  | .hbm, ⟨92, _⟩ => ⟨S1x1, .f32⟩
  | .hbm, ⟨93, _⟩ => ⟨S1x1, .f32⟩
  | .hbm, ⟨94, _⟩ => ⟨S32x1, .f32⟩
  | .hbm, ⟨95, _⟩ => ⟨S1x1, .f32⟩
  | .hbm, ⟨96, _⟩ => ⟨S100000x1, .f32⟩
  | .hbm, ⟨97, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S32x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S1x16, .f32⟩
  | .local _ .vmem, ⟨13, _⟩ => ⟨S10000x32, .f32⟩
  | .local _ .vmem, ⟨14, _⟩ => ⟨S10000x32, .f32⟩
  | .local _ .vmem, ⟨15, _⟩ => ⟨S16x1, .f32⟩
  | .local _ .vmem, ⟨16, _⟩ => ⟨S1x1, .f32⟩
  | .local _ .vmem, ⟨17, _⟩ => ⟨S32x1, .f32⟩
  | .local _ .vmem, ⟨18, _⟩ => ⟨S1x1, .f32⟩
  | .local _ .vmem, ⟨19, _⟩ => ⟨S1x1, .f32⟩
  | .local _ .vmem, ⟨20, _⟩ => ⟨S10000x1, .f32⟩
  | .local _ .vmem, ⟨21, _⟩ => ⟨S10000x1, .f32⟩
  | .local _ .vmem, ⟨22, _⟩ => ⟨S10000x1, .f32⟩
  | .local _ .vmem, ⟨23, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call0_cst : Ref sig .tc := ⟨.hbm, 67, rfl⟩
abbrev main_call0_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_7 : Ref sig .tc := ⟨.hbm, 72, rfl⟩
abbrev main_v50 : Ref sig .tc := ⟨.hbm, 73, rfl⟩
abbrev main_v51 : Ref sig .tc := ⟨.hbm, 74, rfl⟩
abbrev main_c_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71_0 : Ref sig .tc := ⟨.hbm, 96, rfl⟩
abbrev main_v71_1 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg8_1 : Ref sig .tc := ⟨.vmem, 21, rfl⟩
abbrev cc2_stg9_0 : Ref sig .tc := ⟨.vmem, 22, rfl⟩
abbrev cc2_stg9_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem8_1 : DmaSem sig := 21
abbrev cc2_sem9_0 : DmaSem sig := 22
abbrev cc2_sem9_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S10000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S10000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S10000x32_S10000x32 : S10000x32.ShapeCasts S10000x32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1_S1x1_1 : S1.BroadcastsInDim S1x1 (![1] : Fin 1 → Fin S1x1.rank)
  slices_S33x1_S32x1_0_0 : S33x1.Slices ![0, 0] S32x1
  slices_S33x1_S1x1_32_0 : S33x1.Slices ![32, 0] S1x1
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S10000x1_S10000x1_0_0 : ∀ a, (![0, 0] : Fin 2 → Nat) a + S10000x1.size a ≤ S10000x1.size a
  h_S10000x1 : 0 < S10000x1.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x128_S128x32_S10000x32_1_0_0_1_n_n_wf : DotDims.WF S10000x128 S128x32 S10000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S10000x32_S32x16_S10000x16_1_0_0_1_n_n_wf : DotDims.WF S10000x32 S32x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x1_S10000x1_1_0_0_1_n_n_wf : DotDims.WF S10000x16 S16x1 S10000x1 [1] [0] [0] [1] [] []
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x1.size a ≤ S16x1.size a
  hwx2_3 : ∀ i : grid2.Coords, EltTy.bits .f32 = 32 ∨ (Rect.block (s := S16x1) S16x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x1.size a ≤ S32x1.size a
  hwx2_5 : ∀ i : grid2.Coords, EltTy.bits .f32 = 32 ∨ (Rect.block (s := S32x1) S32x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S10000x1.size a ≤ S100000x1.size a
  hwx2_8 : ∀ i : grid2.Coords, EltTy.bits .f32 = 32 ∨ (Rect.block (s := S100000x1) S10000x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S10000x1.size a ≤ S100000x1.size a
  hwx2_9 : ∀ i : grid2.Coords, EltTy.bits .f32 = 32 ∨ (Rect.block (s := S100000x1) S10000x1.size (cc2_transform_9 i) (hinb2_9 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S16x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S32x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v70) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v68) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v71_0) S10000x1.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v71_1) S10000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S33x1 : Shape := ⟨2, ![33, 1]⟩
abbrev S1x3200000 : Shape := ⟨2, ![1, 3200000]⟩
abbrev S100000x32 : Shape := ⟨2, ![100000, 32]⟩
abbrev S_ : Shape := ⟨0, ![]⟩
abbrev S100000 : Shape := ⟨1, ![100000]⟩
abbrev S3200000x1 : Shape := ⟨2, ![3200000, 1]⟩
abbrev S3200000x32 : Shape := ⟨2, ![3200000, 32]⟩
abbrev S100000x1 : Shape := ⟨2, ![100000, 1]⟩
abbrev S1x32 : Shape := ⟨2, ![1, 32]⟩
abbrev S100000x16 : Shape := ⟨2, ![100000, 16]⟩
abbrev S3200000x16 : Shape := ⟨2, ![3200000, 16]⟩
abbrev S1x16 : Shape := ⟨2, ![1, 16]⟩
abbrev S1x1 : Shape := ⟨2, ![1, 1]⟩
abbrev S100000x33 : Shape := ⟨2, ![100000, 33]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S128x32, .f32⟩
  | 4 => ⟨S32, .f32⟩
  | 5 => ⟨S32x16, .f32⟩
  | 6 => ⟨S16, .f32⟩
  | 7 => ⟨S16x1, .f32⟩
  | 8 => ⟨S1, .f32⟩
  | 9 => ⟨S33x1, .f32⟩
  | 10 => ⟨S1, .f32⟩
  | 11 => ⟨S1x3200000, .i32⟩
  | 12 => ⟨S3200000, .i32⟩
  | 13 => ⟨S1x3200000, .i32⟩
  | 14 => ⟨S3200000, .i32⟩
  | 15 => ⟨S100000x32, .f32⟩
  | 16 => ⟨S_, .f32⟩
  | 17 => ⟨S100000, .f32⟩
  | 18 => ⟨S3200000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000, .f32⟩
  | 33 => ⟨S3200000, .f32⟩
  | 34 => ⟨S_, .i32⟩
  | 35 => ⟨S3200000, .i32⟩
  | 36 => ⟨S3200000, .i1⟩
  | 37 => ⟨S_, .i32⟩
  | 38 => ⟨S3200000, .i32⟩
  | 39 => ⟨S3200000, .i32⟩
  | 40 => ⟨S3200000, .i32⟩
  | 41 => ⟨S3200000x1, .i32⟩
  | 42 => ⟨S3200000, .f32⟩
  | 43 => ⟨S3200000, .f32⟩
  | 44 => ⟨S3200000x1, .f32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000x32, .f32⟩
  | 54 => ⟨S3200000x32, .f32⟩
  | 55 => ⟨S3200000x32, .f32⟩
  | 56 => ⟨S_, .f32⟩
  | 57 => ⟨S100000x32, .f32⟩
  | 58 => ⟨S3200000x1, .i32⟩
  | 59 => ⟨S100000x32, .f32⟩
  | 60 => ⟨S100000x1, .f32⟩
  | 61 => ⟨S100000x32, .f32⟩
  | 62 => ⟨S100000x32, .f32⟩
  | 63 => ⟨S100000x32, .f32⟩
  | 64 => ⟨S1x32, .f32⟩
  | 65 => ⟨S100000x32, .f32⟩
  | 66 => ⟨S100000x32, .f32⟩
  | 67 => ⟨S_, .f32⟩
  | 68 => ⟨S100000x32, .f32⟩
  | 69 => ⟨S100000x32, .f32⟩
  | 70 => ⟨S1x3200000, .i32⟩
  | 71 => ⟨S3200000, .i32⟩
  | 72 => ⟨S1x3200000, .i32⟩
  | 73 => ⟨S3200000, .i32⟩
  | 74 => ⟨S100000x16, .f32⟩
  | 75 => ⟨S_, .f32⟩
  | 76 => ⟨S100000, .f32⟩
  | 77 => ⟨S3200000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S3200000, .i32⟩
  | 85 => ⟨S3200000, .i1⟩
  | 86 => ⟨S_, .i32⟩
  | 87 => ⟨S3200000, .i32⟩
  | 88 => ⟨S3200000, .i32⟩
  | 89 => ⟨S3200000, .i32⟩
  | 90 => ⟨S3200000x1, .i32⟩
  | 91 => ⟨S3200000, .f32⟩
  | 92 => ⟨S3200000, .f32⟩
  | 93 => ⟨S_, .i32⟩
  | 94 => ⟨S3200000, .i32⟩
  | 95 => ⟨S3200000, .i1⟩
  | 96 => ⟨S_, .i32⟩
  | 97 => ⟨S3200000, .i32⟩
  | 98 => ⟨S3200000, .i32⟩
  | 99 => ⟨S3200000, .i32⟩
  | 100 => ⟨S3200000x1, .i32⟩
  | 101 => ⟨S3200000, .f32⟩
  | 102 => ⟨S3200000, .f32⟩
  | 103 => ⟨S3200000x1, .f32⟩
  | 104 => ⟨S_, .i32⟩
  | 105 => ⟨S3200000, .i32⟩
  | 106 => ⟨S3200000, .i1⟩
  | 107 => ⟨S_, .i32⟩
  | 108 => ⟨S3200000, .i32⟩
  | 109 => ⟨S3200000, .i32⟩
  | 110 => ⟨S3200000, .i32⟩
  | 111 => ⟨S3200000x1, .i32⟩
  | 112 => ⟨S3200000x16, .f32⟩
  | 113 => ⟨S3200000x16, .f32⟩
  | 114 => ⟨S3200000x16, .f32⟩
  | 115 => ⟨S_, .f32⟩
  | 116 => ⟨S100000x16, .f32⟩
  | 117 => ⟨S3200000x1, .i32⟩
  | 118 => ⟨S100000x16, .f32⟩
  | 119 => ⟨S100000x1, .f32⟩
  | 120 => ⟨S100000x16, .f32⟩
  | 121 => ⟨S100000x16, .f32⟩
  | 122 => ⟨S100000x16, .f32⟩
  | 123 => ⟨S1x16, .f32⟩
  | 124 => ⟨S100000x16, .f32⟩
  | 125 => ⟨S100000x16, .f32⟩
  | 126 => ⟨S100000x1, .f32⟩
  | 127 => ⟨S1x1, .f32⟩
  | _ => ⟨S100000x128, .f32⟩

abbrev hbmTy0_1 (i : Nat) : BufTy := match i % 128 with
  | 0 => ⟨S100000x1, .f32⟩
  | 1 => ⟨S100000x1, .f32⟩
  | 2 => ⟨S100000x1, .f32⟩
  | 3 => ⟨S100000x1, .f32⟩
  | 4 => ⟨S_, .f32⟩
  | 5 => ⟨S100000x1, .f32⟩
  | 6 => ⟨S100000x1, .f32⟩
  | 7 => ⟨S_, .f32⟩
  | 8 => ⟨S100000x1, .f32⟩
  | 9 => ⟨S100000x1, .f32⟩
  | 10 => ⟨S100000x33, .f32⟩
  | 11 => ⟨S100000x1, .f32⟩
  | 12 => ⟨S1x1, .f32⟩
  | 13 => ⟨S100000x1, .f32⟩
  | 14 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call0_cst : Ref sig .tc := ⟨.hbm, 67, rfl⟩
abbrev main_call0_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_c_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_11 : Ref sig .tc := ⟨.hbm, 93, rfl⟩
abbrev main_v67 : Ref sig .tc := ⟨.hbm, 94, rfl⟩
abbrev main_v68 : Ref sig .tc := ⟨.hbm, 95, rfl⟩
abbrev main_c_12 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_13 : Ref sig .tc := ⟨.hbm, 104, rfl⟩
abbrev main_v76 : Ref sig .tc := ⟨.hbm, 105, rfl⟩
abbrev main_v77 : Ref sig .tc := ⟨.hbm, 106, rfl⟩
abbrev main_c_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_15 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_16 : Ref sig .tc := ⟨.hbm, 132, rfl⟩
abbrev main_v101 : Ref sig .tc := ⟨.hbm, 133, rfl⟩
abbrev main_v102 : Ref sig .tc := ⟨.hbm, 134, rfl⟩
abbrev main_cst_17 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  concatenates_S100000x32_S100000x1_S100000x33_d1 : Shape.Concatenates [S100000x32, S100000x1] S100000x33 1
  dot_S100000x128_S128x32_S100000x32_1_0_0_1_n_n_wf : DotDims.WF S100000x128 S128x32 S100000x32 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x1_S100000x1_1_0_0_1_n_n_wf : DotDims.WF S100000x16 S16x1 S100000x1 [1] [0] [0] [1] [] []
  dot_S100000x33_S33x1_S100000x1_1_0_0_1_n_n_wf : DotDims.WF S100000x33 S33x1 S100000x1 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def dot_S100000x33_S33x1_S100000x1_1_0_0_1_n_n : DotDims S100000x33 S33x1 S100000x1 where
  lhsContracting := [1]
  rhsContracting := [0]
  lhsNonContracting := [0]
  rhsNonContracting := [1]
  lhsBatch := []
  rhsBatch := []
  wf := dot_S100000x33_S33x1_S100000x1_1_0_0_1_n_n_wf

class Facts : Prop extends Facts₀ where

variable [Facts]
-- ==== Proof.KRun.lean ====
/-
  The idealized kernel's run, with its two result arrays read.

  The program is seven segments: host operations, the first projection, host operations, the second projection, host
  operations, the readout head. The contents of every buffer at the end of the run are the fold `W7` of those segments
  over the launch memory: a stretch of host operations applies them in order; a region leaves its arrays at what its
  write-backs produce and every other buffer as it found it. Here the launch theorem for a program of several regions is
  applied to those segments and the final state is read at the two result buffers as well as at the arguments: every
  weakly fair execution terminates, nothing faults, the results hold `W7`'s contents and the arguments are unchanged.
  What `W7` holds at the two results is then a matter of values alone (the modules that import this one).
-/
import proofs.«176066_j26963804684652_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result buffers end at the
    segments' fold `W7` and the eleven argument arrays as launched. -/
theorem run_results : θ_run defs (onTc (τ := τ) (main (F := F))) ⟨m, fun _ => 0, ρ⟩ (fun r => ∀ c : Dev nD,
      r.2.mem ((c.tc : Thread nD τ).loc main_v71_0) = W7 m ρ c (Proc.devRef .tc main_v71_0)
      ∧ r.2.mem ((c.tc : Thread nD τ).loc main_v71_1) = W7 m ρ c (Proc.devRef .tc main_v71_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v71_0 (by decide)),
       h c _ (mem_uc main_v71_1 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.RunValue

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«176066_j26963804684652_1_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.ProjRegions.lean ====
/-
  The two dense projections of the network, as whole-array matrix products.

  Each projection walks the 100000 rows of its left operand in ten blocks of 10000 rows.  At grid point t it holds
  rows 10000·t … 10000·t + 9999 of the left operand and the whole right operand (the weight matrix, which does not
  move with t), and it writes rows 10000·t … 10000·t + 9999 of the result: the block's matrix product with the
  weights.  Over the extended reals, rounding the operands to bf16 is the identity and the product accumulated onto
  the zero matrix is the plain sum  Σ_k x(p, k) · w(k, q).  Entry (r, q) of block t reads only row 10000·t + r of the
  left operand, so block t of the result is block t of the ONE whole product `matProd x w`.  The ten blocks tile the
  rows (row p lies in block p / 10000), hence after the last point the result array is `matProd x w`.

  First projection:  x = the node features [100000×128],     w = the first layer's weights [128×32].
  Second projection: x = the hidden activations [100000×32], w = the second layer's weights [32×16].

  Everything is stated for arbitrary contents `V` of the arrays when the projection starts.
-/
import proofs.«176066_j26963804684652_1_alg».proof.Proof.Gen.KernelIdeal.Frame
import proofs.«176066_j26963804684652_1_alg».proof.Proof.LibDotGeneralPlain
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ProjValue

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.LibDotGeneralPlain

variable (V : (c : Dev nD) → (b : Ref sig .tc) → Buf (Elt Ideal) ((c : Thread nD τ).loc b))

/-- The zero offsets of a whole-block access, as the constant function. -/
theorem zero_offsets : (![0, 0] : Fin 2 → Nat) = fun _ => 0 := funext fun a => by fin_cases a <;> rfl

/-! ## The first projection: features times the first layer's weights -/

/-- ONE BLOCK'S PRODUCT at an entry: rounding to bf16 is the identity over the extended reals, and the product
    accumulated onto zero is the sum over the 128 contracted columns. -/
theorem proj0_payload (x0 : Vec Ideal S10000x128 .f32) (x1 : Vec Ideal S128x32 .f32) (r : Fin 10000) (q : Fin 32) :
    k0_pay1 x0 x1 (ix2 r q) = ∑ k : Fin 128, x0 (ix2 r k) * x1 (ix2 k q) := by
  unfold k0_pay1
  exact Cert.LibMatmulPlain.matmul_plain_zero_apply dot_S10000x128_S128x32_S10000x32_1_0_0_1_n_n rfl none _ _ r q

/-- The block indices at grid point `t`: the features' and the result's blocks are row block `t`, column block 0; the
    weights' block is always (0, 0). -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (r, q) of the result's block at point `t` is entry (10000·t + r, q) of the result array. -/
theorem out_index0 (t : Fin cfg0.N) (r : Fin 10000) (q : Fin 32) (h : t.val * 10000 + r.val < 100000) :
    (((cfg0.win 2).blk t).view.emb (ix2 r q) : S100000x32.Idx) = ix2 (⟨t.val * 10000 + r.val, h⟩ : Fin 100000) q := by
  obtain ⟨-, -, -, -, e4, e5⟩ := block_indices0 t
  funext a; apply Fin.ext
  match a with
  | ⟨0, _⟩ => show win0_2.index t (0 : Fin 2) * 10000 + 1 * r.val = t.val * 10000 + r.val; rw [e4]; omega
  | ⟨1, _⟩ => show win0_2.index t (1 : Fin 2) * 32 + 1 * q.val = q.val; rw [e5]; omega

/-- The features' block at point `t` holds rows 10000·t … 10000·t + 9999 of the features. -/
theorem rows_block0 (c : Dev nD) (t : Fin cfg0.N) (r : Fin 10000) (k : Fin 128) (h : t.val * 10000 + r.val < 100000) :
    (iblk0 V c 0 t : Vec Ideal S10000x128 .f32) (ix2 r k)
      = (V c main_arg0 : S100000x128.Idx → EReal) (ix2 (⟨t.val * 10000 + r.val, h⟩ : Fin 100000) k) := by
  obtain ⟨e0, e1, -⟩ := block_indices0 t
  unfold iblk0
  show (V c main_arg0 : S100000x128.Idx → EReal) (((cfg0.win 0).blk t).view.emb (ix2 r k)) = _
  refine congrArg (V c main_arg0 : S100000x128.Idx → EReal) ?_
  funext a; apply Fin.ext
  match a with
  | ⟨0, _⟩ => show win0_0.index t (0 : Fin 2) * 10000 + 1 * r.val = t.val * 10000 + r.val; rw [e0]; omega
  | ⟨1, _⟩ => show win0_0.index t (1 : Fin 2) * 128 + 1 * k.val = k.val; rw [e1]; omega

/-- The weights' block at every point is the whole weight matrix. -/
theorem weights_block0 (c : Dev nD) (t : Fin cfg0.N) (k : Fin 128) (q : Fin 32) :
    (iblk0 V c 1 t : Vec Ideal S128x32 .f32) (ix2 k q) = (V c main_arg3 : S128x32.Idx → EReal) (ix2 k q) := by
  obtain ⟨-, -, e2, e3, -⟩ := block_indices0 t
  unfold iblk0
  show (V c main_arg3 : S128x32.Idx → EReal) (((cfg0.win 1).blk t).view.emb (ix2 k q)) = _
  refine congrArg (V c main_arg3 : S128x32.Idx → EReal) ?_
  funext a; apply Fin.ext
  match a with
  | ⟨0, _⟩ => show win0_1.index t (0 : Fin 2) * 128 + 1 * k.val = k.val; rw [e2]; omega
  | ⟨1, _⟩ => show win0_1.index t (1 : Fin 2) * 32 + 1 * q.val = q.val; rw [e3]; omega

/-- WHAT POINT `t` WRITES is block `t` of the whole product: entry (r, q) of the block's product sums over row
    10000·t + r of the features and column q of the weights, which is entry (10000·t + r, q) of `matProd`. -/
theorem block_written0 (c : Dev nD) (t : Fin cfg0.N) :
    (dat0 (F := Ideal) V c).flushed 2 t
      = ((cfg0.win 2).blk t).view.read (Elt Ideal) (matProd (V c main_arg0) (V c main_arg3)) := by
  show (cfg0.win 2).cut (grid0.coords t) ((dat0 (F := Ideal) V c).after 2 t) = _
  rw [after0_2]
  unfold out0_2
  rw [View.canon_unit_zero zero_offsets]
  simp only [View.ld_unit_zero (S := S10000x128) zero_offsets, View.ld_unit_zero (S := S128x32) zero_offsets]
  funext j
  obtain ⟨r, q, rfl⟩ : ∃ (r : Fin 10000) (q : Fin 32), j = ix2 r q := ⟨j 0, j 1, eq_ix2 j⟩
  have hN : t.val < 10 := Nat.lt_of_lt_of_eq t.isLt N_0
  have hr : t.val * 10000 + r.val < 100000 := by have := r.isLt; omega
  show k0_pay1 (iblk0 V c 0 t) (iblk0 V c 1 t) (ix2 r q)
    = matProd (V c main_arg0) (V c main_arg3) (((cfg0.win 2).blk t).view.emb (ix2 r q))
  refine (proj0_payload _ _ r q).trans ?_
  rw [out_index0 t r q hr, matProd_apply]
  refine Finset.sum_congr rfl fun k _ => ?_
  exact congrArg₂ (· * ·) (rows_block0 V c t r k hr) (weights_block0 V c t k q)

/-- An entry of the result array lies in point `t`'s block iff each coordinate lies in the block's range. -/
theorem mem_out_block0 (t : Fin cfg0.N) (i : S100000x32.Idx) :
    i ∈ ((cfg0.win 2).blk t).view.set
      ↔ ∀ a : Fin 2, win0_2.index t a * S10000x32.size a ≤ (i a).val
          ∧ (i a).val < win0_2.index t a * S10000x32.size a + S10000x32.size a := by
  show i ∈ ((View.whole main_v26).slice (win0_2.rect t)).set ↔ _
  rw [View.set_slice_whole, Rect.mem_set_unit]
  exact Iff.rfl

/-- The ten row blocks tile the result: row p lies in the block of point p / 10000, and every point writes back. -/
theorem rows_covered0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have ht : (i 0).val / 10000 < cfg0.N := by rw [show cfg0.N = 10 from N_0]; omega
  obtain ⟨-, -, -, -, e4, e5⟩ := block_indices0 ⟨(i 0).val / 10000, ht⟩
  have e4' : win0_2.index ⟨(i 0).val / 10000, ht⟩ (0 : Fin 2) = (i 0).val / 10000 := e4
  refine ⟨⟨(i 0).val / 10000, ht⟩, flush0_2 _, ?_⟩
  rw [mem_out_block0]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4']; omega
  | ⟨1, _⟩ =>
    show win0_2.index ⟨(i 0).val / 10000, ht⟩ (1 : Fin 2) * 32 ≤ (i 1).val
      ∧ (i 1).val < win0_2.index ⟨(i 0).val / 10000, ht⟩ (1 : Fin 2) * 32 + 32
    rw [e5]; omega

/-- THE FIRST PROJECTION'S RESULT: after the last point the result array is the features times the weights. -/
theorem final0 (c : Dev nD) :
    (dat0 (F := Ideal) V c).arrAt 2 cfg0.N = Cert.LibDotGeneralPlain.matProd (V c main_arg0) (V c main_arg3) :=
  (dat0 (F := Ideal) V c).arrAt_eq_of_cover 2 (matProd (V c main_arg0) (V c main_arg3))
    (fun t _ => block_written0 V c t) rows_covered0

/-! ## The second projection: hidden activations times the second layer's weights -/

/-- ONE BLOCK'S PRODUCT at an entry: the cast to the same shape and the rounding to bf16 are the identity over the
    extended reals, and the product accumulated onto zero is the sum over the 32 contracted columns. -/
theorem proj1_payload (x0 : Vec Ideal S10000x32 .f32) (x1 : Vec Ideal S32x16 .f32) (r : Fin 10000) (q : Fin 16) :
    k1_pay1 x0 x1 (ix2 r q) = ∑ k : Fin 32, x0 (ix2 r k) * x1 (ix2 k q) := by
  unfold k1_pay1
  refine (Cert.LibMatmulPlain.matmul_plain_zero_apply dot_S10000x32_S32x16_S10000x16_1_0_0_1_n_n rfl none _ _ r q).trans ?_
  refine Finset.sum_congr rfl fun k _ => ?_
  show shapeCast S10000x32 x0 shapeCasts_S10000x32_S10000x32 (ix2 r k) * x1 (ix2 k q) = _
  rw [shapeCast_self]

/-- The block indices at grid point `t`: the activations' and the result's blocks are row block `t`, column block 0;
    the weights' block is always (0, 0). -/
theorem block_indices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (r, q) of the result's block at point `t` is entry (10000·t + r, q) of the result array. -/
theorem out_index1 (t : Fin cfg1.N) (r : Fin 10000) (q : Fin 16) (h : t.val * 10000 + r.val < 100000) :
    (((cfg1.win 2).blk t).view.emb (ix2 r q) : S100000x16.Idx) = ix2 (⟨t.val * 10000 + r.val, h⟩ : Fin 100000) q := by
  obtain ⟨-, -, -, -, e4, e5⟩ := block_indices1 t
  funext a; apply Fin.ext
  match a with
  | ⟨0, _⟩ => show win1_2.index t (0 : Fin 2) * 10000 + 1 * r.val = t.val * 10000 + r.val; rw [e4]; omega
  | ⟨1, _⟩ => show win1_2.index t (1 : Fin 2) * 16 + 1 * q.val = q.val; rw [e5]; omega

/-- The activations' block at point `t` holds rows 10000·t … 10000·t + 9999 of the activations. -/
theorem rows_block1 (c : Dev nD) (t : Fin cfg1.N) (r : Fin 10000) (k : Fin 32) (h : t.val * 10000 + r.val < 100000) :
    (iblk1 V c 0 t : Vec Ideal S10000x32 .f32) (ix2 r k)
      = (V c main_v47 : S100000x32.Idx → EReal) (ix2 (⟨t.val * 10000 + r.val, h⟩ : Fin 100000) k) := by
  obtain ⟨e0, e1, -⟩ := block_indices1 t
  unfold iblk1
  show (V c main_v47 : S100000x32.Idx → EReal) (((cfg1.win 0).blk t).view.emb (ix2 r k)) = _
  refine congrArg (V c main_v47 : S100000x32.Idx → EReal) ?_
  funext a; apply Fin.ext
  match a with
  | ⟨0, _⟩ => show win1_0.index t (0 : Fin 2) * 10000 + 1 * r.val = t.val * 10000 + r.val; rw [e0]; omega
  | ⟨1, _⟩ => show win1_0.index t (1 : Fin 2) * 32 + 1 * k.val = k.val; rw [e1]; omega

/-- The weights' block at every point is the whole weight matrix. -/
theorem weights_block1 (c : Dev nD) (t : Fin cfg1.N) (k : Fin 32) (q : Fin 16) :
    (iblk1 V c 1 t : Vec Ideal S32x16 .f32) (ix2 k q) = (V c main_arg5 : S32x16.Idx → EReal) (ix2 k q) := by
  obtain ⟨-, -, e2, e3, -⟩ := block_indices1 t
  unfold iblk1
  show (V c main_arg5 : S32x16.Idx → EReal) (((cfg1.win 1).blk t).view.emb (ix2 k q)) = _
  refine congrArg (V c main_arg5 : S32x16.Idx → EReal) ?_
  funext a; apply Fin.ext
  match a with
  | ⟨0, _⟩ => show win1_1.index t (0 : Fin 2) * 32 + 1 * k.val = k.val; rw [e2]; omega
  | ⟨1, _⟩ => show win1_1.index t (1 : Fin 2) * 16 + 1 * q.val = q.val; rw [e3]; omega

/-- WHAT POINT `t` WRITES is block `t` of the whole product: entry (r, q) of the block's product sums over row
    10000·t + r of the activations and column q of the weights, which is entry (10000·t + r, q) of `matProd`. -/
theorem block_written1 (c : Dev nD) (t : Fin cfg1.N) :
    (dat1 (F := Ideal) V c).flushed 2 t
      = ((cfg1.win 2).blk t).view.read (Elt Ideal) (matProd (V c main_v47) (V c main_arg5)) := by
  show (cfg1.win 2).cut (grid1.coords t) ((dat1 (F := Ideal) V c).after 2 t) = _
  rw [after1_2]
  unfold out1_2
  rw [View.canon_unit_zero zero_offsets]
  simp only [View.ld_unit_zero (S := S10000x32) zero_offsets, View.ld_unit_zero (S := S32x16) zero_offsets]
  funext j
  obtain ⟨r, q, rfl⟩ : ∃ (r : Fin 10000) (q : Fin 16), j = ix2 r q := ⟨j 0, j 1, eq_ix2 j⟩
  have hN : t.val < 10 := Nat.lt_of_lt_of_eq t.isLt N_1
  have hr : t.val * 10000 + r.val < 100000 := by have := r.isLt; omega
  show k1_pay1 (iblk1 V c 0 t) (iblk1 V c 1 t) (ix2 r q)
    = matProd (V c main_v47) (V c main_arg5) (((cfg1.win 2).blk t).view.emb (ix2 r q))
  refine (proj1_payload _ _ r q).trans ?_
  rw [out_index1 t r q hr, matProd_apply]
  refine Finset.sum_congr rfl fun k _ => ?_
  exact congrArg₂ (· * ·) (rows_block1 V c t r k hr) (weights_block1 V c t k q)

/-- An entry of the result array lies in point `t`'s block iff each coordinate lies in the block's range. -/
theorem mem_out_block1 (t : Fin cfg1.N) (i : S100000x16.Idx) :
    i ∈ ((cfg1.win 2).blk t).view.set
      ↔ ∀ a : Fin 2, win1_2.index t a * S10000x16.size a ≤ (i a).val
          ∧ (i a).val < win1_2.index t a * S10000x16.size a + S10000x16.size a := by
  show i ∈ ((View.whole main_v48).slice (win1_2.rect t)).set ↔ _
  rw [View.set_slice_whole, Rect.mem_set_unit]
  exact Iff.rfl

/-- The ten row blocks tile the result: row p lies in the block of point p / 10000, and every point writes back. -/
theorem rows_covered1 (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have ht : (i 0).val / 10000 < cfg1.N := by rw [show cfg1.N = 10 from N_1]; omega
  obtain ⟨-, -, -, -, e4, e5⟩ := block_indices1 ⟨(i 0).val / 10000, ht⟩
  have e4' : win1_2.index ⟨(i 0).val / 10000, ht⟩ (0 : Fin 2) = (i 0).val / 10000 := e4
  refine ⟨⟨(i 0).val / 10000, ht⟩, flush1_2 _, ?_⟩
  rw [mem_out_block1]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e4']; omega
  | ⟨1, _⟩ =>
    show win1_2.index ⟨(i 0).val / 10000, ht⟩ (1 : Fin 2) * 16 ≤ (i 1).val
      ∧ (i 1).val < win1_2.index ⟨(i 0).val / 10000, ht⟩ (1 : Fin 2) * 16 + 16
    rw [e5]; omega

/-- THE SECOND PROJECTION'S RESULT: after the last point the result array is the activations times the weights. -/
theorem final1 (c : Dev nD) :
    (dat1 (F := Ideal) V c).arrAt 2 cfg1.N = Cert.LibDotGeneralPlain.matProd (V c main_v47) (V c main_arg5) :=
  (dat1 (F := Ideal) V c).arrAt_eq_of_cover 2 (matProd (V c main_v47) (V c main_arg5))
    (fun t _ => block_written1 V c t) rows_covered1

end Cert.KernelIdeal.ProjValue

end
-- ==== Proof.HostValues.lean ====
/-
  What the kernel program's buffers hold at each boundary between its segments, as functions of the arguments.

  The program alternates stretches of host operations with three regions. The host operations are the same graph
  convolution steps the reference performs — the two index rows of the edge list, the weighted in-degree plus one, its
  inverse square root gathered at both ends of every edge and multiplied with the edge weight (the normalisation), the
  gather of the projected rows by source, the scatter-add by target, the node's own row over its degree, the bias, the
  rectifier — applied to whatever the regions produced. Reading a stretch's operations in order, every buffer after it
  is a composition of those operations over the buffers before it; a region changes only its own output array, which
  is a matrix product of two of its inputs (the projections) or the readout head. So, segment by segment:

    after the first stretch    the source and target rows, the degrees and the normalisation are the reference's
                               stages of the edge list and the edge weights;
    after the first projection its output is x·W1, the reference's first product;
    after the second stretch   the hidden features are the reference's (the same operations on the same product);
    after the second projection its output is h·W2, the reference's second product;
    after the third stretch    the second layer's aggregate before its bias is the reference's, and the small operands
                               of the head are the bias row, the two 1×1 biases and the two slices of the 33×1 weight.

  Each equation is closed by comparing two compositions of the same operations; the reference computes the degrees and
  the normalisation a second time for its second layer, from the same edge list, and the two computations are one term.
-/
import proofs.«176066_j26963804684652_1_alg».proof.Proof.Gen.KernelIdeal.Frame
import proofs.«176066_j26963804684652_1_alg».proof.Proof.Gen.ReferenceIdeal.Read
import proofs.«176066_j26963804684652_1_alg».proof.Proof.ProjRegions
import Idealize.ShloMosaic.Lib.StableHlo.Run

set_option maxRecDepth 16384

noncomputable section

namespace Cert.KernelIdeal.HostValue

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The reference's second computation of the edge quantities is its first -/

theorem src_again (x1 : (⟨Cert.ReferenceIdeal.S2x3200000, .i32⟩ : BufTy).Contents (Elt Ideal)) :
    val_main_v49 (F := Ideal) x1 = val_main_v1 (F := Ideal) x1 := by
  unfold val_main_v49 val_main_v48 val_main_v1 val_main_v0; rfl
theorem dst_again (x1 : (⟨Cert.ReferenceIdeal.S2x3200000, .i32⟩ : BufTy).Contents (Elt Ideal)) :
    val_main_v51 (F := Ideal) x1 = val_main_v3 (F := Ideal) x1 := by
  unfold val_main_v51 val_main_v50 val_main_v3 val_main_v2; rfl
theorem deg_again (x1 : (⟨Cert.ReferenceIdeal.S2x3200000, .i32⟩ : BufTy).Contents (Elt Ideal))
    (x2 : (⟨Cert.ReferenceIdeal.S3200000, .f32⟩ : BufTy).Contents (Elt Ideal)) :
    val_main_v57 (F := Ideal) x1 x2 = val_main_v9 (F := Ideal) x1 x2 := by
  unfold val_main_v57 val_main_v56 val_main_cst_8 val_main_v55 val_main_v54 val_main_v53 val_main_cst_7
    val_main_v9 val_main_v8 val_main_cst_0 val_main_v7 val_main_v6 val_main_v5 val_main_cst
  rw [dst_again]
theorem norm_again (x1 : (⟨Cert.ReferenceIdeal.S2x3200000, .i32⟩ : BufTy).Contents (Elt Ideal))
    (x2 : (⟨Cert.ReferenceIdeal.S3200000, .f32⟩ : BufTy).Contents (Elt Ideal)) :
    val_main_v74 (F := Ideal) x1 x2 = val_main_v26 (F := Ideal) x1 x2 := by
  unfold val_main_v74 val_main_v73 val_main_v72 val_main_v71 val_main_v70 val_main_v69 val_main_c_12 val_main_v68 val_main_v67
    val_main_c_11 val_main_v66 val_main_v65 val_main_v64 val_main_v63 val_main_v62 val_main_v61 val_main_c_10 val_main_v60
    val_main_v59 val_main_c_9 val_main_v58
    val_main_v26 val_main_v25 val_main_v24 val_main_v23 val_main_v22 val_main_v21 val_main_c_3 val_main_v20 val_main_v19
    val_main_c_2 val_main_v18 val_main_v17 val_main_v16 val_main_v15 val_main_v14 val_main_v13 val_main_c_1 val_main_v12
    val_main_v11 val_main_c val_main_v10
  rw [src_again, dst_again, deg_again]

/-! ## After the first stretch of host operations -/

theorem w1_arg0 (c : Dev nD) : W1 m ρ c (Proc.devRef .tc main_arg0) = m ((c : Thread nD τ).loc main_arg0) := by
  show StableHlo.after hostOps0 (W0 m ρ c) (Proc.devRef .tc main_arg0) = _
  after_results_simp; try rfl
theorem w1_arg3 (c : Dev nD) : W1 m ρ c (Proc.devRef .tc main_arg3) = m ((c : Thread nD τ).loc main_arg3) := by
  show StableHlo.after hostOps0 (W0 m ρ c) (Proc.devRef .tc main_arg3) = _
  after_results_simp; try rfl
theorem w1_src (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp; try rfl
theorem w1_dst (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp; try rfl
theorem w1_deg (c : Dev nD) : W1 m ρ c (Proc.devRef .tc main_v8) = val_main_v9 (F := Ideal) (m ((c : Thread nD τ).loc main_arg1)) (m ((c : Thread nD τ).loc main_arg2)) := by
  show StableHlo.after hostOps0 (W0 m ρ c) (Proc.devRef .tc main_v8) = _
  after_results_simp; try rfl
theorem w1_norm (c : Dev nD) : W1 m ρ c (Proc.devRef .tc main_v25) = val_main_v26 (F := Ideal) (m ((c : Thread nD τ).loc main_arg1)) (m ((c : Thread nD τ).loc main_arg2)) := by
  show StableHlo.after hostOps0 (W0 m ρ c) (Proc.devRef .tc main_v25) = _
  after_results_simp; try rfl
theorem w1_arg4 (c : Dev nD) : W1 m ρ c (Proc.devRef .tc main_arg4) = m ((c : Thread nD τ).loc main_arg4) := by
  show StableHlo.after hostOps0 (W0 m ρ c) (Proc.devRef .tc main_arg4) = _
  after_results_simp; try rfl

/-! ## After the first projection -/

/-- The first projection's output array is the reference's first product, x·W1. -/
theorem w2_proj (c : Dev nD) :
    W2 m ρ c (Proc.devRef .tc main_v26)
      = val_main_v4 (F := Ideal) (m ((c : Thread nD τ).loc main_arg0)) (m ((c : Thread nD τ).loc main_arg3)) := by
  refine (W2_arr m ρ c 2).trans ?_
  rw [Cert.KernelIdeal.ProjValue.final0 (V1 m ρ) c]
  show Cert.LibDotGeneralPlain.matProd (W1 m ρ c (Proc.devRef .tc main_arg0)) (W1 m ρ c (Proc.devRef .tc main_arg3)) = _
  rw [w1_arg0, w1_arg3]
  unfold val_main_v4
  simp only [Host.dotGeneral]
  exact (Cert.LibDotGeneralPlain.dotGeneral_plain_eq _ rfl _ _ _ _).symm

/-! ## After the second stretch: the hidden features -/

/-- The first layer's output before the rectifier: the aggregate of the normalised neighbour rows, plus the node's own
    row over its degree, plus the bias. -/
theorem w3_pre (c : Dev nD) :
    StableHlo.after hostOps1 (W2 m ρ c) (Proc.devRef .tc main_v46)
      = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  after_results_simp
  rw [w2_proj, W2_of_ne m ρ c main_v25 (by decide), W2_of_ne m ρ c main_v1 (by decide), W2_of_ne m ρ c main_v3 (by decide),
    W2_of_ne m ρ c main_v8 (by decide), W2_of_ne m ρ c main_arg4 (by decide)]
  rw [w1_src, w1_dst, w1_deg, w1_norm, w1_arg4]
  unfold val_main_v46 val_main_v43 val_main_v45 val_main_v44 val_main_v42 val_main_v41 val_main_v40 val_main_v39 val_main_v38
    val_main_v37 val_main_cst_6 val_main_v36 val_main_v35 val_main_v34 val_main_v33 val_main_v32 val_main_v31 val_main_v30
    val_main_c_5 val_main_v29 val_main_v28 val_main_c_4 val_main_v27
  rfl

/-- The rectifier's three operations, from any contents: the entrywise maximum of that output with zero. -/
theorem relu_step (X : Valuation τ sig (Elt Ideal)) :
    StableHlo.after hostOps1_1 X (Proc.devRef .tc main_v47)
      = maximumf (X (Proc.devRef .tc main_v46) : FVec Ideal S100000x32 .f32)
          (broadcastInDim S100000x32 ![] bcast_S_S100000x32 (constant (F := Ideal) S_ .f32 0x00000000#32)) := by
  after_results_simp
  rfl

/-- The hidden features are the reference's. -/
theorem w4_hidden (c : Dev nD) :
    W4 m ρ c (Proc.devRef .tc main_v47)
      = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1_1 (StableHlo.after hostOps1 (W2 m ρ c)) (Proc.devRef .tc main_v47) = _
  rw [relu_step, w3_pre]
  unfold val_main_v47 val_main_call0_v0 val_main_call0_cst
  rfl

set_option hygiene false in
/-- A buffer that neither of the first two stretches nor the first projection writes holds at the second projection's
    entry what the launch memory held. -/
local macro "unwritten_to_w4" b:ident : tactic => `(tactic| (
  show StableHlo.after hostOps1_1 (StableHlo.after hostOps1 (W2 m ρ c)) (Proc.devRef .tc $b) = _
  after_results_simp
  rw [W2_of_ne m ρ c $b (by decide)]
  show StableHlo.after hostOps0 (W0 m ρ c) (Proc.devRef .tc $b) = _
  after_results_simp
  try rfl))

theorem w4_arg5 (c : Dev nD) : W4 m ρ c (Proc.devRef .tc main_arg5) = m ((c : Thread nD τ).loc main_arg5) := by
  unwritten_to_w4 main_arg5
theorem w4_arg6 (c : Dev nD) : W4 m ρ c (Proc.devRef .tc main_arg6) = m ((c : Thread nD τ).loc main_arg6) := by
  unwritten_to_w4 main_arg6
theorem w4_arg7 (c : Dev nD) : W4 m ρ c (Proc.devRef .tc main_arg7) = m ((c : Thread nD τ).loc main_arg7) := by
  unwritten_to_w4 main_arg7
theorem w4_arg8 (c : Dev nD) : W4 m ρ c (Proc.devRef .tc main_arg8) = m ((c : Thread nD τ).loc main_arg8) := by
  unwritten_to_w4 main_arg8
theorem w4_arg9 (c : Dev nD) : W4 m ρ c (Proc.devRef .tc main_arg9) = m ((c : Thread nD τ).loc main_arg9) := by
  unwritten_to_w4 main_arg9
theorem w4_arg10 (c : Dev nD) : W4 m ρ c (Proc.devRef .tc main_arg10) = m ((c : Thread nD τ).loc main_arg10) := by
  unwritten_to_w4 main_arg10

set_option hygiene false in
/-- A buffer the first stretch computes and nothing later writes holds at the second projection's entry what it held
    after the first stretch. -/
local macro "kept_from_first" b:ident h:ident : tactic => `(tactic| (
  show StableHlo.after hostOps1_1 (StableHlo.after hostOps1 (W2 m ρ c)) (Proc.devRef .tc $b) = _
  after_results_simp
  rw [W2_of_ne m ρ c $b (by decide)]
  exact $h m ρ c))

theorem w4_src (c : Dev nD) : W4 m ρ c (Proc.devRef .tc main_v1) = val_main_v1 (F := Ideal) (m ((c : Thread nD τ).loc main_arg1)) := by
  kept_from_first main_v1 w1_src
theorem w4_dst (c : Dev nD) : W4 m ρ c (Proc.devRef .tc main_v3) = val_main_v3 (F := Ideal) (m ((c : Thread nD τ).loc main_arg1)) := by
  kept_from_first main_v3 w1_dst
theorem w4_deg (c : Dev nD) : W4 m ρ c (Proc.devRef .tc main_v8) = val_main_v9 (F := Ideal) (m ((c : Thread nD τ).loc main_arg1)) (m ((c : Thread nD τ).loc main_arg2)) := by
  kept_from_first main_v8 w1_deg
theorem w4_norm (c : Dev nD) : W4 m ρ c (Proc.devRef .tc main_v25) = val_main_v26 (F := Ideal) (m ((c : Thread nD τ).loc main_arg1)) (m ((c : Thread nD τ).loc main_arg2)) := by
  kept_from_first main_v25 w1_norm

/-! ## After the second projection -/

/-- The second projection's output array is the reference's second product, h·W2. -/
theorem w5_proj (c : Dev nD) :
    W5 m ρ c (Proc.devRef .tc main_v48)
      = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W5_arr m ρ c 2).trans ?_
  rw [Cert.KernelIdeal.ProjValue.final1 (V4 m ρ) c]
  show Cert.LibDotGeneralPlain.matProd (W4 m ρ c (Proc.devRef .tc main_v47)) (W4 m ρ c (Proc.devRef .tc main_arg5)) = _
  rw [w4_hidden, w4_arg5]
  unfold val_main_v52
  simp only [Host.dotGeneral]
  exact (Cert.LibDotGeneralPlain.dotGeneral_plain_eq _ rfl _ _ _ _).symm

/-- The hidden features are an input of the second projection, which leaves its inputs as it found them. -/
theorem w5_hidden (c : Dev nD) :
    W5 m ρ c (Proc.devRef .tc main_v47)
      = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  ((W5_arr m ρ c 0).trans (((dat1 (V4 m ρ) c).arrAt_in 0 rfl _).trans (A_eq1 (V4 m ρ) c 0))).trans (w4_hidden m ρ c)

/-! ## After the third stretch: the head's operands -/

/-- The second layer's aggregate before its bias is the reference's. -/
theorem w6_agg (c : Dev nD) :
    W6 m ρ c (Proc.devRef .tc main_v65)
      = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W5 m ρ c) (Proc.devRef .tc main_v65) = _
  after_results_simp
  rw [w5_proj, W5_of_ne m ρ c main_v25 (by decide), W5_of_ne m ρ c main_v1 (by decide), W5_of_ne m ρ c main_v3 (by decide),
    W5_of_ne m ρ c main_v8 (by decide)]
  rw [w4_src, w4_dst, w4_deg, w4_norm]
  unfold val_main_v91 val_main_v90 val_main_v89 val_main_v88 val_main_v87 val_main_v86 val_main_v85 val_main_cst_15 val_main_v84
    val_main_v83 val_main_v82 val_main_v81 val_main_v80 val_main_v79 val_main_v78 val_main_c_14 val_main_v77 val_main_v76
    val_main_c_13 val_main_v75
  rw [src_again, dst_again, deg_again, norm_again]
  rfl

set_option hygiene false in
/-- A small operand of the head: one host operation of the third stretch applied to an argument that nothing before
    it writes. -/
local macro "head_operand" a:ident w4a:ident : tactic => `(tactic| (
  show StableHlo.after hostOps2 (W5 m ρ c) (Proc.devRef .tc _) = _
  after_results_simp
  rw [W5_of_ne m ρ c $a (by decide), $w4a:ident]))

/-- The second layer's bias as a row. -/
theorem w6_bias_row (c : Dev nD) :
    W6 m ρ c (Proc.devRef .tc main_v66) = val_main_v92 (F := Ideal) (m ((c : Thread nD τ).loc main_arg6)) := by
  head_operand main_arg6 w4_arg6
  unfold val_main_v92; rfl
/-- The first dense map's bias as a 1×1 array. -/
theorem w6_score_bias (c : Dev nD) :
    W6 m ρ c (Proc.devRef .tc main_v67) = val_main_v96 (F := Ideal) (m ((c : Thread nD τ).loc main_arg8)) := by
  head_operand main_arg8 w4_arg8
  unfold val_main_v96; rfl
/-- The second dense map's bias as a 1×1 array. -/
theorem w6_resp_bias (c : Dev nD) :
    W6 m ρ c (Proc.devRef .tc main_v68) = val_main_v107 (F := Ideal) (m ((c : Thread nD τ).loc main_arg10)) := by
  head_operand main_arg10 w4_arg10
  unfold val_main_v107; rfl
/-- The first 32 rows of the 33×1 weight. -/
theorem w6_weight_rows (c : Dev nD) :
    W6 m ρ c (Proc.devRef .tc main_v69) = extractStridedSlice S32x1 ![0, 0] (m ((c : Thread nD τ).loc main_arg9)) slices_S33x1_S32x1_0_0 := by
  head_operand main_arg9 w4_arg9
/-- The last row of the 33×1 weight. -/
theorem w6_weight_last (c : Dev nD) :
    W6 m ρ c (Proc.devRef .tc main_v70) = extractStridedSlice S1x1 ![32, 0] (m ((c : Thread nD τ).loc main_arg9)) slices_S33x1_S1x1_32_0 := by
  head_operand main_arg9 w4_arg9
/-- The 16×1 weight is an argument, untouched. -/
theorem w6_score_weight (c : Dev nD) :
    W6 m ρ c (Proc.devRef .tc main_arg7) = (m ((c : Thread nD τ).loc main_arg7)) := by
  show StableHlo.after hostOps2 (W5 m ρ c) (Proc.devRef .tc main_arg7) = _
  after_results_simp
  rw [W5_of_ne m ρ c main_arg7 (by decide), w4_arg7]
/-- The hidden features, untouched by the third stretch. -/
theorem w6_hidden (c : Dev nD) :
    W6 m ρ c (Proc.devRef .tc main_v47)
      = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W5 m ρ c) (Proc.devRef .tc main_v47) = _
  after_results_simp
  exact w5_hidden m ρ c

end Cert.KernelIdeal.HostValue

end
-- ==== Proof.Spec.lean ====
/-
  The readout head of the network as two functions of whole arrays, over the extended reals.

  For a node p, with X the second layer's aggregate before its bias (16 features), b2 that bias as a row, w the 16×1
  weight and b the 1×1 bias of the first dense map, the SCORE of p is

      score(p) = Σ_{k<16} (X(p,k) + b2(0,k)) · w(k,0) + b(0,0),

  and with H the hidden features (32 per node), wh a 32×1 weight, wc and b' 1×1, the RESPONSE of p is

      resp(p) = ( Σ_{k<32} H(p,k) · wh(k,0) + σ(score(p)) · wc(0,0) ) + b'(0,0),

  σ the logistic function 1 / (1 + e^(-x)) on the extended reals. Both are stated index by index over the literal
  shapes, so that a value computed block of rows by block of rows and a value computed by whole-array operations can
  each be compared with them. Also the one law of sums used: a sum over 33 terms is the sum of the first 32 and the last.
-/
import Idealize.ShloMosaic.PureOps.Ideal.Laws
import Idealize.ShloMosaic.Lib.ValueIdx

noncomputable section

open scoped BigOperators

namespace Cert.Spec

open Idealize.ShloMosaic Idealize.ShloMosaic.ValueIdx

/-- The score of every node: the biased aggregate's product with the 16×1 weight, plus the scalar bias. -/
def score (X : (⟨2, ![100000, 16]⟩ : Shape).Idx → EReal) (b2 : (⟨2, ![1, 16]⟩ : Shape).Idx → EReal)
    (w : (⟨2, ![16, 1]⟩ : Shape).Idx → EReal) (b : (⟨2, ![1, 1]⟩ : Shape).Idx → EReal) :
    (⟨2, ![100000, 1]⟩ : Shape).Idx → EReal :=
  fun i => (∑ k : Fin 16, (X (ix2 (i 0) k) + b2 (ix2 0 k)) * w (ix2 k 0)) + b (ix2 0 0)

theorem score_apply (X : (⟨2, ![100000, 16]⟩ : Shape).Idx → EReal) (b2 : (⟨2, ![1, 16]⟩ : Shape).Idx → EReal)
    (w : (⟨2, ![16, 1]⟩ : Shape).Idx → EReal) (b : (⟨2, ![1, 1]⟩ : Shape).Idx → EReal) (p : Fin 100000) (z : Fin 1) :
    score X b2 w b (ix2 p z) = (∑ k : Fin 16, (X (ix2 p k) + b2 (ix2 0 k)) * w (ix2 k 0)) + b (ix2 0 0) := rfl

/-- The response of every node: the hidden features' product with the 32×1 weight, plus the logistic of the score
    times the scalar weight, plus the scalar bias — grouped as the sum of the first two, then the bias. -/
def resp (s : (⟨2, ![100000, 1]⟩ : Shape).Idx → EReal) (H : (⟨2, ![100000, 32]⟩ : Shape).Idx → EReal)
    (wh : (⟨2, ![32, 1]⟩ : Shape).Idx → EReal) (wc b : (⟨2, ![1, 1]⟩ : Shape).Idx → EReal) :
    (⟨2, ![100000, 1]⟩ : Shape).Idx → EReal :=
  fun i => ((∑ k : Fin 32, H (ix2 (i 0) k) * wh (ix2 k 0)) + Ideal.logistic (s i) * wc (ix2 0 0)) + b (ix2 0 0)

theorem resp_apply (s : (⟨2, ![100000, 1]⟩ : Shape).Idx → EReal) (H : (⟨2, ![100000, 32]⟩ : Shape).Idx → EReal)
    (wh : (⟨2, ![32, 1]⟩ : Shape).Idx → EReal) (wc b : (⟨2, ![1, 1]⟩ : Shape).Idx → EReal) (p : Fin 100000) (z : Fin 1) :
    resp s H wh wc b (ix2 p z)
      = ((∑ k : Fin 32, H (ix2 p k) * wh (ix2 k 0)) + Ideal.logistic (s (ix2 p z)) * wc (ix2 0 0)) + b (ix2 0 0) := rfl

/-- A sum of 33 extended reals is the sum of the first 32 plus the last: addition of extended reals is associative
    and commutative at the infinities too, so no finiteness is asked. -/
theorem sum_33 (f : Fin 33 → EReal) : ∑ k : Fin 33, f k = (∑ k : Fin 32, f k.castSucc) + f (Fin.last 32) :=
  Fin.sum_univ_castSucc f

end Cert.Spec

end
-- ==== Proof.HeadRegion.lean ====
/-
  The value of the readout head's two output arrays, as functions of whole arrays, over the extended reals.

  The head is computed block of rows by block of rows: the 100000 nodes are cut into 10 blocks of 10000 consecutive
  rows, and at each block the kernel reads the matching 10000 rows of the aggregate (16 features) and of the hidden
  features (32), together with the six small arrays whole (a bias row, two weight columns, three scalars), and writes
  the block's score and the block's response. Because the score of a node depends only on that node's own row of the
  aggregate, and the response only on that node's own row of the hidden features and on its own score, the value written
  for row r of block t is the value of the whole-array functions `Cert.Spec.score` and `Cert.Spec.resp` at node
  10000·t + r. The ten blocks are disjoint and fill the array, so each output array ends as that whole-array function.

  The steps: (1) a block's score and response entry by entry, over arbitrary blocks; (2) where each block sits in its
  array, decided once over the ten grid points; (3) each input block read as rows of its array; (4) what a grid point
  writes back is the matching block of the whole-array function; (5) every node lies in some point's block.
-/
import proofs.«176066_j26963804684652_1_alg».proof.Proof.Gen.KernelIdeal.Frame
import proofs.«176066_j26963804684652_1_alg».proof.Proof.Spec
import proofs.«176066_j26963804684652_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HeadValue

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## A block's score and response, entry by entry -/

/-- The score of one block of 10000 rows, entry by entry: the block's rows plus the bias row, times the 16×1 weight,
    plus the scalar bias. Rounding to the narrower format is the identity on the extended reals, the product into the
    zero matrix is the plain sum over the 16 features, and the two biases are one row and one entry repeated. -/
theorem score_block_apply (x0 : Vec Ideal S10000x16 .f32) (x1 : Vec Ideal S1x16 .f32) (x3 : Vec Ideal S16x1 .f32)
    (x4 : Vec Ideal S1x1 .f32) (r : Fin 10000) (z : Fin 1) :
    k2_pay1 x0 x1 x3 x4 (ix2 r z)
      = (∑ k : Fin 16, (x0 (ix2 r k) + x1 (ix2 0 k)) * x3 (ix2 k 0)) + x4 (ix2 0 0) := by
  obtain rfl : z = 0 := Subsingleton.elim _ _
  unfold k2_pay1
  rw [shapeCast_self, shapeCast_self, shapeCast_self]
  refine congrArg₂ (· + ·) ?_ (broadcastTo_1b_ab_apply (a := 10000) (b := 1) x4 _ r 0)
  refine (Cert.LibMatmulPlain.matmul_plain_zero_apply (M := 10000) (K := 16) (N := 1)
    dot_S10000x16_S16x1_S10000x1_1_0_0_1_n_n rfl none _ _ r 0).trans ?_
  refine Finset.sum_congr rfl fun k _ => ?_
  exact congrArg (fun y => (x0 (ix2 r k) + y) * x3 (ix2 k 0)) (broadcastTo_1b_ab_apply (a := 10000) (b := 16) x1 _ r k)

/-- The response of one block of 10000 rows, entry by entry, in terms of the block's score: the hidden rows times the
    32×1 weight, plus the logistic of the score times the scalar weight, plus the scalar bias. -/
theorem resp_block_apply (x0 : Vec Ideal S10000x16 .f32) (x1 : Vec Ideal S1x16 .f32) (x3 : Vec Ideal S16x1 .f32)
    (x4 : Vec Ideal S1x1 .f32) (x2 : Vec Ideal S10000x32 .f32) (x5 : Vec Ideal S32x1 .f32) (x6 x7 : Vec Ideal S1x1 .f32)
    (r : Fin 10000) (z : Fin 1) :
    k2_pay2 x0 x1 x3 x4 x2 x5 x6 x7 (ix2 r z)
      = ((∑ k : Fin 32, x2 (ix2 r k) * x5 (ix2 k 0)) + Ideal.logistic (k2_pay1 x0 x1 x3 x4 (ix2 r z)) * x6 (ix2 0 0))
          + x7 (ix2 0 0) := by
  obtain rfl : z = 0 := Subsingleton.elim _ _
  unfold k2_pay2
  rw [shapeCast_self, shapeCast_self, shapeCast_self, shapeCast_self]
  refine congrArg₂ (· + ·) (congrArg₂ (· + ·) ?_ ?_) (broadcastTo_1b_ab_apply (a := 10000) (b := 1) x7 _ r 0)
  · exact Cert.LibMatmulPlain.matmul_plain_zero_apply (M := 10000) (K := 32) (N := 1)
      dot_S10000x32_S32x1_S10000x1_1_0_0_1_n_n rfl none _ _ r 0
  · exact congrArg (fun y => Ideal.logistic (k2_pay1 x0 x1 x3 x4 (ix2 r 0)) * y)
      (broadcastTo_1b_ab_apply (a := 10000) (b := 1) x6 _ r 0)

variable (V : (c : Dev nD) → (b : Ref sig .tc) → Buf (Elt Ideal) ((c : Thread nD τ).loc b))

/-! ## Where the blocks sit -/

/-- The zero offsets of a whole-block access, as a constant function. -/
theorem zero_offsets : (![0, 0] : Fin 2 → Nat) = fun _ => 0 := funext fun a => by fin_cases a <;> rfl

/-- The row-tiled arrays (aggregate, hidden features, both outputs) are all cut at the same block of rows at every grid
    point, in their only block of columns; there are ten blocks of rows. -/
theorem row_blocks : ∀ t : Fin cfg2.N,
    win2_0.index t (0 : Fin 2) = win2_8.index t (0 : Fin 2) ∧ win2_0.index t (1 : Fin 2) = 0
    ∧ win2_2.index t (0 : Fin 2) = win2_8.index t (0 : Fin 2) ∧ win2_2.index t (1 : Fin 2) = 0
    ∧ win2_9.index t (0 : Fin 2) = win2_8.index t (0 : Fin 2) ∧ win2_9.index t (1 : Fin 2) = 0
    ∧ win2_8.index t (1 : Fin 2) = 0 ∧ win2_8.index t (0 : Fin 2) < 10 :=
  (by decide +kernel : ∀ t : Fin grid2.N, _)

/-- The six small arrays are read whole at every grid point: their one block is block (0, 0). -/
theorem whole_blocks : ∀ t : Fin cfg2.N,
    win2_1.index t (0 : Fin 2) = 0 ∧ win2_1.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Each of the ten blocks of rows is some grid point's. -/
theorem block_of_rows : ∀ q : Fin 10, ∃ t : Fin cfg2.N, win2_8.index t = ![q.val, 0] :=
  (by decide +kernel : ∀ q : Fin 10, ∃ t : Fin grid2.N, win2_8.index t = ![q.val, 0])

/-! ## The input blocks as rows of their arrays -/

/-- Row r of the aggregate's block at point t is row 10000·(block of t) + r of the aggregate. -/
theorem rows_aggregate (c : Dev nD) (t : Fin cfg2.N) (r : Fin 10000) (k : Fin 16) (p : Fin 100000)
    (hp : p.val = win2_8.index t (0 : Fin 2) * 10000 + r.val) :
    (iblk2 V c 0 t : Vec Ideal S10000x16 .f32) (ix2 r k) = (V c main_v65 : S100000x16.Idx → EReal) (ix2 p k) := by
  obtain ⟨e0, e1, -⟩ := row_blocks t
  unfold iblk2
  rw [View.read_apply]
  show V c main_v65 _ = V c main_v65 _
  refine congrArg (V c main_v65) (funext fun a => Fin.ext ?_)
  match a with
  | ⟨0, _⟩ => show win2_0.index t (0 : Fin 2) * 10000 + 1 * r.val = p.val; omega
  | ⟨1, _⟩ => show win2_0.index t (1 : Fin 2) * 16 + 1 * k.val = k.val; omega

/-- Row r of the hidden features' block at point t is row 10000·(block of t) + r of the hidden features. -/
theorem rows_hidden (c : Dev nD) (t : Fin cfg2.N) (r : Fin 10000) (k : Fin 32) (p : Fin 100000)
    (hp : p.val = win2_8.index t (0 : Fin 2) * 10000 + r.val) :
    (iblk2 V c 2 t : Vec Ideal S10000x32 .f32) (ix2 r k) = (V c main_v47 : S100000x32.Idx → EReal) (ix2 p k) := by
  obtain ⟨-, -, e0, e1, -⟩ := row_blocks t
  unfold iblk2
  rw [View.read_apply]
  show V c main_v47 _ = V c main_v47 _
  refine congrArg (V c main_v47) (funext fun a => Fin.ext ?_)
  match a with
  | ⟨0, _⟩ => show win2_2.index t (0 : Fin 2) * 10000 + 1 * r.val = p.val; omega
  | ⟨1, _⟩ => show win2_2.index t (1 : Fin 2) * 32 + 1 * k.val = k.val; omega

/-- The second layer's bias row is read whole. -/
theorem whole_bias_row (c : Dev nD) (t : Fin cfg2.N) :
    (iblk2 V c 1 t : Vec Ideal S1x16 .f32) = (V c main_v66 : S1x16.Idx → EReal) := by
  obtain ⟨e0, e1, -⟩ := whole_blocks t
  funext y
  unfold iblk2
  rw [View.read_apply]
  show V c main_v66 _ = V c main_v66 y
  refine congrArg (V c main_v66) (funext fun a => Fin.ext ?_)
  match a with
  | ⟨0, _⟩ => show win2_1.index t (0 : Fin 2) * 1 + 1 * (y 0).val = (y 0).val; omega
  | ⟨1, _⟩ => show win2_1.index t (1 : Fin 2) * 16 + 1 * (y 1).val = (y 1).val; omega

/-- The score's 16×1 weight is read whole. -/
theorem whole_score_weight (c : Dev nD) (t : Fin cfg2.N) :
    (iblk2 V c 3 t : Vec Ideal S16x1 .f32) = (V c main_arg7 : S16x1.Idx → EReal) := by
  obtain ⟨-, -, e0, e1, -⟩ := whole_blocks t
  funext y
  unfold iblk2
  rw [View.read_apply]
  show V c main_arg7 _ = V c main_arg7 y
  refine congrArg (V c main_arg7) (funext fun a => Fin.ext ?_)
  match a with
  | ⟨0, _⟩ => show win2_3.index t (0 : Fin 2) * 16 + 1 * (y 0).val = (y 0).val; omega
  | ⟨1, _⟩ => show win2_3.index t (1 : Fin 2) * 1 + 1 * (y 1).val = (y 1).val; omega

/-- The score's scalar bias is read whole. -/
theorem whole_score_bias (c : Dev nD) (t : Fin cfg2.N) :
    (iblk2 V c 4 t : Vec Ideal S1x1 .f32) = (V c main_v67 : S1x1.Idx → EReal) := by
  obtain ⟨-, -, -, -, e0, e1, -⟩ := whole_blocks t
  funext y
  unfold iblk2
  rw [View.read_apply]
  show V c main_v67 _ = V c main_v67 y
  refine congrArg (V c main_v67) (funext fun a => Fin.ext ?_)
  match a with
  | ⟨0, _⟩ => show win2_4.index t (0 : Fin 2) * 1 + 1 * (y 0).val = (y 0).val; omega
  | ⟨1, _⟩ => show win2_4.index t (1 : Fin 2) * 1 + 1 * (y 1).val = (y 1).val; omega

/-- The response's 32×1 weight is read whole. -/
theorem whole_hidden_weight (c : Dev nD) (t : Fin cfg2.N) :
    (iblk2 V c 5 t : Vec Ideal S32x1 .f32) = (V c main_v69 : S32x1.Idx → EReal) := by
  obtain ⟨-, -, -, -, -, -, e0, e1, -⟩ := whole_blocks t
  funext y
  unfold iblk2
  rw [View.read_apply]
  show V c main_v69 _ = V c main_v69 y
  refine congrArg (V c main_v69) (funext fun a => Fin.ext ?_)
  match a with
  | ⟨0, _⟩ => show win2_5.index t (0 : Fin 2) * 32 + 1 * (y 0).val = (y 0).val; omega
  | ⟨1, _⟩ => show win2_5.index t (1 : Fin 2) * 1 + 1 * (y 1).val = (y 1).val; omega

/-- The scalar weight of the logistic term is read whole. -/
theorem whole_gate_weight (c : Dev nD) (t : Fin cfg2.N) :
    (iblk2 V c 6 t : Vec Ideal S1x1 .f32) = (V c main_v70 : S1x1.Idx → EReal) := by
  obtain ⟨-, -, -, -, -, -, -, -, e0, e1, -⟩ := whole_blocks t
  funext y
  unfold iblk2
  rw [View.read_apply]
  show V c main_v70 _ = V c main_v70 y
  refine congrArg (V c main_v70) (funext fun a => Fin.ext ?_)
  match a with
  | ⟨0, _⟩ => show win2_6.index t (0 : Fin 2) * 1 + 1 * (y 0).val = (y 0).val; omega
  | ⟨1, _⟩ => show win2_6.index t (1 : Fin 2) * 1 + 1 * (y 1).val = (y 1).val; omega

/-- The response's scalar bias is read whole. -/
theorem whole_resp_bias (c : Dev nD) (t : Fin cfg2.N) :
    (iblk2 V c 7 t : Vec Ideal S1x1 .f32) = (V c main_v68 : S1x1.Idx → EReal) := by
  obtain ⟨-, -, -, -, -, -, -, -, -, -, e0, e1⟩ := whole_blocks t
  funext y
  unfold iblk2
  rw [View.read_apply]
  show V c main_v68 _ = V c main_v68 y
  refine congrArg (V c main_v68) (funext fun a => Fin.ext ?_)
  match a with
  | ⟨0, _⟩ => show win2_7.index t (0 : Fin 2) * 1 + 1 * (y 0).val = (y 0).val; omega
  | ⟨1, _⟩ => show win2_7.index t (1 : Fin 2) * 1 + 1 * (y 1).val = (y 1).val; omega

/-! ## The output blocks as rows of their arrays -/

/-- Row r of the response's block at point t is node 10000·(block of t) + r. -/
theorem node_of_resp_row (t : Fin cfg2.N) (r : Fin 10000) (z : Fin 1) (p : Fin 100000)
    (hp : p.val = win2_8.index t (0 : Fin 2) * 10000 + r.val) :
    ((cfg2.win 8).blk t).view.emb (ix2 r z : S10000x1.Idx) = (ix2 p z : S100000x1.Idx) := by
  obtain ⟨-, -, -, -, -, -, e1, -⟩ := row_blocks t
  refine funext fun a => Fin.ext ?_
  match a with
  | ⟨0, _⟩ => show win2_8.index t (0 : Fin 2) * 10000 + 1 * r.val = p.val; omega
  | ⟨1, _⟩ => show win2_8.index t (1 : Fin 2) * 1 + 1 * z.val = z.val; omega

/-- Row r of the score's block at point t is node 10000·(block of t) + r. -/
theorem node_of_score_row (t : Fin cfg2.N) (r : Fin 10000) (z : Fin 1) (p : Fin 100000)
    (hp : p.val = win2_8.index t (0 : Fin 2) * 10000 + r.val) :
    ((cfg2.win 9).blk t).view.emb (ix2 r z : S10000x1.Idx) = (ix2 p z : S100000x1.Idx) := by
  obtain ⟨-, -, -, -, e0, e1, -⟩ := row_blocks t
  refine funext fun a => Fin.ext ?_
  match a with
  | ⟨0, _⟩ => show win2_9.index t (0 : Fin 2) * 10000 + 1 * r.val = p.val; omega
  | ⟨1, _⟩ => show win2_9.index t (1 : Fin 2) * 1 + 1 * z.val = z.val; omega

/-! ## A block's entries are the whole-array functions at the block's nodes -/

/-- If row r of the aggregate's block is node p's row and the small arrays are the whole ones, the block's score at
    row r is the score of node p. -/
theorem score_block_eq (x0 : Vec Ideal S10000x16 .f32) (x1 : Vec Ideal S1x16 .f32) (x3 : Vec Ideal S16x1 .f32)
    (x4 : Vec Ideal S1x1 .f32) (X : S100000x16.Idx → EReal) (b2 : S1x16.Idx → EReal) (w : S16x1.Idx → EReal)
    (b : S1x1.Idx → EReal) (r : Fin 10000) (z : Fin 1) (p : Fin 100000)
    (h0 : ∀ k : Fin 16, x0 (ix2 r k) = X (ix2 p k)) (h1 : x1 = b2) (h3 : x3 = w) (h4 : x4 = b) :
    k2_pay1 x0 x1 x3 x4 (ix2 r z) = Cert.Spec.score X b2 w b (ix2 p z) := by
  subst h1 h3 h4
  rw [score_block_apply, Cert.Spec.score_apply]
  simp only [h0]

/-- Likewise the block's response at row r is the response of node p. -/
theorem resp_block_eq (x0 : Vec Ideal S10000x16 .f32) (x1 : Vec Ideal S1x16 .f32) (x3 : Vec Ideal S16x1 .f32)
    (x4 : Vec Ideal S1x1 .f32) (x2 : Vec Ideal S10000x32 .f32) (x5 : Vec Ideal S32x1 .f32) (x6 x7 : Vec Ideal S1x1 .f32)
    (X : S100000x16.Idx → EReal) (b2 : S1x16.Idx → EReal) (w : S16x1.Idx → EReal) (b : S1x1.Idx → EReal)
    (H : S100000x32.Idx → EReal) (wh : S32x1.Idx → EReal) (wc b' : S1x1.Idx → EReal)
    (r : Fin 10000) (z : Fin 1) (p : Fin 100000)
    (h0 : ∀ k : Fin 16, x0 (ix2 r k) = X (ix2 p k)) (h1 : x1 = b2) (h3 : x3 = w) (h4 : x4 = b)
    (h2 : ∀ k : Fin 32, x2 (ix2 r k) = H (ix2 p k)) (h5 : x5 = wh) (h6 : x6 = wc) (h7 : x7 = b') :
    k2_pay2 x0 x1 x3 x4 x2 x5 x6 x7 (ix2 r z)
      = Cert.Spec.resp (Cert.Spec.score X b2 w b) H wh wc b' (ix2 p z) := by
  rw [resp_block_apply, score_block_eq x0 x1 x3 x4 X b2 w b r z p h0 h1 h3 h4, Cert.Spec.resp_apply]
  subst h5 h6 h7
  simp only [h2]

/-! ## What a grid point writes back -/

/-- Grid point t writes back, as the score's block, the matching block of the whole-array score. -/
theorem flushed_score_eq (c : Dev nD) (t : Fin cfg2.N) :
    (dat2 (F := Ideal) V c).flushed 9 t
      = ((cfg2.win 9).blk t).view.read (Elt Ideal)
          (Cert.Spec.score (V c main_v65) (V c main_v66) (V c main_arg7) (V c main_v67)) := by
  show (cfg2.win 9).cut (grid2.coords t) ((dat2 (F := Ideal) V c).after 9 t) = _
  rw [after2_9]
  unfold out2_9
  rw [View.canon_unit_zero zero_offsets]
  simp only [View.ld_unit_zero (S := S10000x16) zero_offsets, View.ld_unit_zero (S := S1x16) zero_offsets,
    View.ld_unit_zero (S := S16x1) zero_offsets, View.ld_unit_zero (S := S1x1) zero_offsets]
  obtain ⟨-, -, -, -, -, -, -, hlt⟩ := row_blocks t
  refine funext fun (j : S10000x1.Idx) => ?_
  obtain ⟨r, z, rfl⟩ : ∃ (r : Fin 10000) (z : Fin 1), j = ix2 r z := ⟨j 0, j 1, eq_ix2 j⟩
  obtain ⟨p, hp⟩ : ∃ p : Fin 100000, p.val = win2_8.index t (0 : Fin 2) * 10000 + r.val :=
    ⟨⟨win2_8.index t (0 : Fin 2) * 10000 + r.val, by have := r.isLt; omega⟩, rfl⟩
  show k2_pay1 (iblk2 V c 0 t) (iblk2 V c 1 t) (iblk2 V c 3 t) (iblk2 V c 4 t) (ix2 r z)
    = Cert.Spec.score (V c main_v65) (V c main_v66) (V c main_arg7) (V c main_v67)
        (((cfg2.win 9).blk t).view.emb (ix2 r z : S10000x1.Idx))
  rw [node_of_score_row t r z p hp]
  exact score_block_eq _ _ _ _ _ _ _ _ r z p (fun k => rows_aggregate V c t r k p hp)
    (whole_bias_row V c t) (whole_score_weight V c t) (whole_score_bias V c t)

/-- Grid point t writes back, as the response's block, the matching block of the whole-array response. -/
theorem flushed_resp_eq (c : Dev nD) (t : Fin cfg2.N) :
    (dat2 (F := Ideal) V c).flushed 8 t
      = ((cfg2.win 8).blk t).view.read (Elt Ideal)
          (Cert.Spec.resp (Cert.Spec.score (V c main_v65) (V c main_v66) (V c main_arg7) (V c main_v67))
            (V c main_v47) (V c main_v69) (V c main_v70) (V c main_v68)) := by
  show (cfg2.win 8).cut (grid2.coords t) ((dat2 (F := Ideal) V c).after 8 t) = _
  rw [after2_8]
  unfold out2_8
  rw [View.canon_unit_zero zero_offsets]
  simp only [View.ld_unit_zero (S := S10000x16) zero_offsets, View.ld_unit_zero (S := S1x16) zero_offsets,
    View.ld_unit_zero (S := S16x1) zero_offsets, View.ld_unit_zero (S := S1x1) zero_offsets,
    View.ld_unit_zero (S := S10000x32) zero_offsets, View.ld_unit_zero (S := S32x1) zero_offsets]
  obtain ⟨-, -, -, -, -, -, -, hlt⟩ := row_blocks t
  refine funext fun (j : S10000x1.Idx) => ?_
  obtain ⟨r, z, rfl⟩ : ∃ (r : Fin 10000) (z : Fin 1), j = ix2 r z := ⟨j 0, j 1, eq_ix2 j⟩
  obtain ⟨p, hp⟩ : ∃ p : Fin 100000, p.val = win2_8.index t (0 : Fin 2) * 10000 + r.val :=
    ⟨⟨win2_8.index t (0 : Fin 2) * 10000 + r.val, by have := r.isLt; omega⟩, rfl⟩
  show k2_pay2 (iblk2 V c 0 t) (iblk2 V c 1 t) (iblk2 V c 3 t) (iblk2 V c 4 t) (iblk2 V c 2 t) (iblk2 V c 5 t)
      (iblk2 V c 6 t) (iblk2 V c 7 t) (ix2 r z)
    = Cert.Spec.resp (Cert.Spec.score (V c main_v65) (V c main_v66) (V c main_arg7) (V c main_v67))
        (V c main_v47) (V c main_v69) (V c main_v70) (V c main_v68)
        (((cfg2.win 8).blk t).view.emb (ix2 r z : S10000x1.Idx))
  rw [node_of_resp_row t r z p hp]
  exact resp_block_eq _ _ _ _ _ _ _ _ _ _ _ _ _ _ _ _ r z p (fun k => rows_aggregate V c t r k p hp)
    (whole_bias_row V c t) (whole_score_weight V c t) (whole_score_bias V c t)
    (fun k => rows_hidden V c t r k p hp) (whole_hidden_weight V c t) (whole_gate_weight V c t)
    (whole_resp_bias V c t)

/-! ## The blocks fill the arrays -/

/-- A node is in point t's block of the response iff each coordinate is in the block's range on its axis. -/
theorem mem_resp_block (t : Fin cfg2.N) (i : S100000x1.Idx) :
    i ∈ ((cfg2.win 8).blk t).view.set ↔ ∀ a : Fin 2, win2_8.index t a * S10000x1.size a ≤ (i a).val
      ∧ (i a).val < win2_8.index t a * S10000x1.size a + S10000x1.size a := by
  show i ∈ ((View.whole main_v71_0).slice (win2_8.rect t)).set ↔ _
  rw [View.set_slice_whole, Rect.mem_set_unit]
  exact Iff.rfl

/-- A node is in point t's block of the score iff each coordinate is in the block's range on its axis. -/
theorem mem_score_block (t : Fin cfg2.N) (i : S100000x1.Idx) :
    i ∈ ((cfg2.win 9).blk t).view.set ↔ ∀ a : Fin 2, win2_9.index t a * S10000x1.size a ≤ (i a).val
      ∧ (i a).val < win2_9.index t a * S10000x1.size a + S10000x1.size a := by
  show i ∈ ((View.whole main_v71_1).slice (win2_9.rect t)).set ↔ _
  rw [View.set_slice_whole, Rect.mem_set_unit]
  exact Iff.rfl

/-- Node n lies in the response block of the point whose block of rows is n / 10000, and every point writes back. -/
theorem resp_blocks_cover (i : S100000x1.Idx) :
    ∃ t : Fin cfg2.N, (cfg2.win 8).flush t = true ∧ i ∈ ((cfg2.win 8).blk t).view.set := by
  have hi0 : (i 0).val < 100000 := (i 0).isLt
  have hi1 : (i 1).val < 1 := (i 1).isLt
  obtain ⟨t, ht⟩ := block_of_rows ⟨(i 0).val / 10000, by omega⟩
  have q0 : win2_8.index t (0 : Fin 2) = (i 0).val / 10000 := congrFun ht 0
  have q1 : win2_8.index t (1 : Fin 2) = 0 := congrFun ht 1
  refine ⟨t, flush2_8 t, ?_⟩
  rw [mem_resp_block]
  intro a
  match a with
  | ⟨0, _⟩ =>
    show win2_8.index t (0 : Fin 2) * 10000 ≤ (i 0).val ∧ (i 0).val < win2_8.index t (0 : Fin 2) * 10000 + 10000
    omega
  | ⟨1, _⟩ =>
    show win2_8.index t (1 : Fin 2) * 1 ≤ (i 1).val ∧ (i 1).val < win2_8.index t (1 : Fin 2) * 1 + 1
    omega

/-- Likewise for the score's blocks. -/
theorem score_blocks_cover (i : S100000x1.Idx) :
    ∃ t : Fin cfg2.N, (cfg2.win 9).flush t = true ∧ i ∈ ((cfg2.win 9).blk t).view.set := by
  have hi0 : (i 0).val < 100000 := (i 0).isLt
  have hi1 : (i 1).val < 1 := (i 1).isLt
  obtain ⟨t, ht⟩ := block_of_rows ⟨(i 0).val / 10000, by omega⟩
  have q0 : win2_8.index t (0 : Fin 2) = (i 0).val / 10000 := congrFun ht 0
  obtain ⟨-, -, -, -, e0, e1, -⟩ := row_blocks t
  refine ⟨t, flush2_9 t, ?_⟩
  rw [mem_score_block]
  intro a
  match a with
  | ⟨0, _⟩ =>
    show win2_9.index t (0 : Fin 2) * 10000 ≤ (i 0).val ∧ (i 0).val < win2_9.index t (0 : Fin 2) * 10000 + 10000
    omega
  | ⟨1, _⟩ =>
    show win2_9.index t (1 : Fin 2) * 1 ≤ (i 1).val ∧ (i 1).val < win2_9.index t (1 : Fin 2) * 1 + 1
    omega

/-! ## The two output arrays after the region -/

/-- The score array ends as the whole-array score of the arrays the region was entered with. -/
theorem final9 (c : Dev nD) :
    (dat2 (F := Ideal) V c).arrAt 9 cfg2.N
      = Cert.Spec.score (V c main_v65) (V c main_v66) (V c main_arg7) (V c main_v67) :=
  (dat2 (F := Ideal) V c).arrAt_eq_of_cover 9
    (Cert.Spec.score (V c main_v65) (V c main_v66) (V c main_arg7) (V c main_v67))
    (fun t _ => flushed_score_eq V c t) score_blocks_cover

/-- The response array ends as the whole-array response of the arrays the region was entered with. -/
theorem final8 (c : Dev nD) :
    (dat2 (F := Ideal) V c).arrAt 8 cfg2.N
      = Cert.Spec.resp (Cert.Spec.score (V c main_v65) (V c main_v66) (V c main_arg7) (V c main_v67))
          (V c main_v47) (V c main_v69) (V c main_v70) (V c main_v68) :=
  (dat2 (F := Ideal) V c).arrAt_eq_of_cover 8
    (Cert.Spec.resp (Cert.Spec.score (V c main_v65) (V c main_v66) (V c main_arg7) (V c main_v67))
      (V c main_v47) (V c main_v69) (V c main_v70) (V c main_v68))
    (fun t _ => flushed_resp_eq V c t) resp_blocks_cover

end Cert.KernelIdeal.HeadValue

end
-- ==== Proof.RefHead.lean ====
/-
  The reference's two results, read index by index, are the specification's score and response of the reference's own
  earlier stages.

  SCORE. The reference adds the bias row b2 (broadcast over the rows) to the second layer's aggregate X, contracts the
  sum with the 16×1 weight w, and adds the 1×1 bias b (broadcast over the rows). At a node p this is

      Σ_{k<16} (X(p,k) + b2(0,k)) · w(k,0) + b(0,0),

  the specification's score at p: each broadcast reads its operand at the index with the broadcast coordinate set to 0,
  and the contraction is a plain sum over the extended reals.

  RESPONSE. The reference forms c = 1 / (1 + exp(−score)) elementwise — by definition the logistic function of the
  score — joins the hidden features H (32 columns) and c (one column) into 33 columns, contracts them with the 33×1
  weight, and adds the 1×1 bias b'. A sum of 33 terms is the sum of the first 32 and the last. For k < 32 the joined
  array reads H(p,k) and the weight's row k is row k of its first 32 rows; the last term reads c(p,0) and the weight's
  row 32, which is the only row of its last row taken as a 1×1 array. So the response at p is

      ( Σ_{k<32} H(p,k) · wh(k,0) + σ(score(p)) · wc(0,0) ) + b'(0,0)

  with wh, wc the two slices of the weight: the specification's response, in its grouping. Nothing is assumed finite:
  only the splitting of a finite sum, which holds at the infinities of the extended reals too, is used.
-/
import proofs.«176066_j26963804684652_1_alg».proof.Proof.Gen.ReferenceIdeal.Read
import proofs.«176066_j26963804684652_1_alg».proof.Proof.Spec
import proofs.«176066_j26963804684652_1_alg».proof.Proof.LibDotGeneralPlain
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The index functions of the last stages, at a node -/

/-- The first contraction reads its left operand, for the node p and the term k, at (p, k). -/
theorem lidx95_eq (p : Fin 100000) (k : Fin 16) : lidx_main_v95 (ix2 p (0 : Fin 1)) k = ix2 p k :=
  funext fun a => Fin.ext (by match a with | ⟨0, _⟩ => rfl | ⟨1, _⟩ => rfl)

/-- The first contraction reads its weight, for the term k, at (k, 0). -/
theorem ridx95_eq (p : Fin 100000) (k : Fin 16) : ridx_main_v95 (ix2 p (0 : Fin 1)) k = ix2 k (0 : Fin 1) :=
  funext fun a => Fin.ext (by match a with | ⟨0, _⟩ => rfl | ⟨1, _⟩ => rfl)

/-- The bias row broadcast over the rows reads the row at (0, k). -/
theorem idx93_eq (p : Fin 100000) (k : Fin 16) : idx_main_v93 (ix2 p k) = ix2 (0 : Fin 1) k :=
  funext fun a => Fin.ext (by match a with | ⟨0, _⟩ => rfl | ⟨1, _⟩ => rfl)

/-- The first 1×1 bias broadcast over the rows reads it at (0, 0). -/
theorem idx97_eq (p : Fin 100000) : idx_main_v97 (ix2 p (0 : Fin 1)) = ix2 (0 : Fin 1) (0 : Fin 1) :=
  funext fun a => Fin.ext (by match a with | ⟨0, _⟩ => rfl | ⟨1, _⟩ => rfl)

/-- The second 1×1 bias broadcast over the rows reads it at (0, 0). -/
theorem idx108_eq (p : Fin 100000) : idx_main_v108 (ix2 p (0 : Fin 1)) = ix2 (0 : Fin 1) (0 : Fin 1) :=
  funext fun a => Fin.ext (by match a with | ⟨0, _⟩ => rfl | ⟨1, _⟩ => rfl)

/-! ## The score -/

/-- The reference's first result is the specification's score of the second layer's aggregate, the bias row, the
    16×1 weight and the 1×1 bias. -/
theorem score_eq (x0 : (⟨S100000x128, .f32⟩ : BufTy).Contents (Elt Ideal)) (x1 : (⟨S2x3200000, .i32⟩ : BufTy).Contents (Elt Ideal))
    (x2 : (⟨S3200000, .f32⟩ : BufTy).Contents (Elt Ideal)) (x3 : (⟨S128x32, .f32⟩ : BufTy).Contents (Elt Ideal))
    (x4 : (⟨S32, .f32⟩ : BufTy).Contents (Elt Ideal)) (x5 : (⟨S32x16, .f32⟩ : BufTy).Contents (Elt Ideal))
    (x6 : (⟨S16, .f32⟩ : BufTy).Contents (Elt Ideal)) (x7 : (⟨S16x1, .f32⟩ : BufTy).Contents (Elt Ideal))
    (x8 : (⟨S1, .f32⟩ : BufTy).Contents (Elt Ideal)) :
    val_main_v98 (F := Ideal) x0 x1 x2 x3 x4 x5 x6 x7 x8
      = Cert.Spec.score (val_main_v91 (F := Ideal) x0 x1 x2 x3 x4 x5) (val_main_v92 (F := Ideal) x6) x7
          (val_main_v96 (F := Ideal) x8) := by
  funext i
  obtain ⟨p, z, rfl⟩ : ∃ (p : Fin 100000) (z : Fin 1), i = ix2 p z := ⟨i 0, i 1, eq_ix2 i⟩
  obtain rfl : z = 0 := Subsingleton.elim _ _
  rw [Cert.Spec.score_apply, val_main_v98_apply, val_main_v95_apply, val_main_v97_apply, Ideal.addf_def, idx97_eq]
  -- term by term: the biased aggregate at (p, k) times the weight at (k, 0)
  have hs : ∀ k : Fin 16,
      val_main_v94 (F := Ideal) x0 x1 x2 x3 x4 x5 x6 (lidx_main_v95 (ix2 p (0 : Fin 1)) k) * x7 (ridx_main_v95 (ix2 p (0 : Fin 1)) k)
        = (val_main_v91 (F := Ideal) x0 x1 x2 x3 x4 x5 (ix2 p k) + val_main_v92 (F := Ideal) x6 (ix2 (0 : Fin 1) k)) * x7 (ix2 k (0 : Fin 1)) := fun k => by
    rw [lidx95_eq, ridx95_eq, val_main_v94_apply, val_main_v93_apply, Ideal.addf_def, idx93_eq]
  rw [Finset.sum_congr rfl fun k _ => hs k]

/-! ## The response -/

/-- The second contraction reads its left operand, for the node p and the term k, at (p, k). -/
theorem lidx106_eq (p : Fin 100000) (k : Fin 33) : lidx_main_v106 (ix2 p (0 : Fin 1)) k = ix2 p k :=
  funext fun a => Fin.ext (by match a with | ⟨0, _⟩ => rfl | ⟨1, _⟩ => rfl)

/-- The second contraction reads its weight, for the term k, at (k, 0). -/
theorem ridx106_eq (p : Fin 100000) (k : Fin 33) : ridx_main_v106 (ix2 p (0 : Fin 1)) k = ix2 k (0 : Fin 1) :=
  funext fun a => Fin.ext (by match a with | ⟨0, _⟩ => rfl | ⟨1, _⟩ => rfl)

/-- Two arrays of 32 columns and of one column joined along the columns: a column k < 32 of the joined array is
    column k of the first. -/
theorem join_left {α : Type} (H : S100000x32.Idx → α) (C : S100000x1.Idx → α)
    (h : Shape.Concatenates [S100000x32, S100000x1] S100000x33 1) (p : Fin 100000) (k : Fin 32) :
    concatenate S100000x33 1 [⟨S100000x32, H⟩, ⟨S100000x1, C⟩] h (ix2 p k.castSucc) = H (ix2 p k) :=
  concatenate_pair_apply_left (1 : Fin S100000x33.rank) H C h (ix2 p k.castSucc) rfl (ix2 p k)
    (fun b => match b with | ⟨0, _⟩ => rfl | ⟨1, _⟩ => rfl)

/-- The last column, column 32, of the joined array is the one column of the second. -/
theorem join_right {α : Type} (H : S100000x32.Idx → α) (C : S100000x1.Idx → α)
    (h : Shape.Concatenates [S100000x32, S100000x1] S100000x33 1) (p : Fin 100000) :
    concatenate S100000x33 1 [⟨S100000x32, H⟩, ⟨S100000x1, C⟩] h (ix2 p (Fin.last 32)) = C (ix2 p (0 : Fin 1)) :=
  concatenate_pair_apply_right (1 : Fin S100000x33.rank) H C h (ix2 p (Fin.last 32)) rfl rfl (ix2 p (0 : Fin 1))
    (fun b => match b with | ⟨0, _⟩ => fun _ => rfl | ⟨1, _⟩ => fun hb => absurd rfl hb)
    rfl

/-- Row k < 32 of the first 32 rows of a 33×1 array is its row k. -/
theorem rows_top {α : Type} (w : S33x1.Idx → α) (h0 : S33x1.Slices ![0, 0] (⟨2, ![32, 1]⟩ : Shape)) (k : Fin 32) :
    extractStridedSlice (⟨2, ![32, 1]⟩ : Shape) ![0, 0] w h0 (ix2 k (0 : Fin 1)) = w (ix2 k.castSucc (0 : Fin 1)) :=
  extractStridedSlice_apply ![0, 0] w h0 (ix2 k (0 : Fin 1)) (ix2 k.castSucc (0 : Fin 1)) (fun a => match a with
    | ⟨0, _⟩ => by show k.castSucc.val = 0 + k.val; rw [Fin.val_castSucc, Nat.zero_add]
    | ⟨1, _⟩ => rfl)

/-- The one row of the last row of a 33×1 array, taken as a 1×1 array, is its row 32. -/
theorem rows_last {α : Type} (w : S33x1.Idx → α) (h1 : S33x1.Slices ![32, 0] (⟨2, ![1, 1]⟩ : Shape)) :
    extractStridedSlice (⟨2, ![1, 1]⟩ : Shape) ![32, 0] w h1 (ix2 (0 : Fin 1) (0 : Fin 1)) = w (ix2 (Fin.last 32) (0 : Fin 1)) :=
  extractStridedSlice_apply ![32, 0] w h1 (ix2 (0 : Fin 1) (0 : Fin 1)) (ix2 (Fin.last 32) (0 : Fin 1)) (fun a => match a with
    | ⟨0, _⟩ => rfl
    | ⟨1, _⟩ => rfl)

/-- The reference's 1 / (1 + exp(−s)), s the score at a node, is the logistic function of the score there: the
    constant is the extended real 1, and the logistic function is this quotient by definition. -/
theorem logistic_point (x0 : (⟨S100000x128, .f32⟩ : BufTy).Contents (Elt Ideal)) (x1 : (⟨S2x3200000, .i32⟩ : BufTy).Contents (Elt Ideal))
    (x2 : (⟨S3200000, .f32⟩ : BufTy).Contents (Elt Ideal)) (x3 : (⟨S128x32, .f32⟩ : BufTy).Contents (Elt Ideal))
    (x4 : (⟨S32, .f32⟩ : BufTy).Contents (Elt Ideal)) (x5 : (⟨S32x16, .f32⟩ : BufTy).Contents (Elt Ideal))
    (x6 : (⟨S16, .f32⟩ : BufTy).Contents (Elt Ideal)) (x7 : (⟨S16x1, .f32⟩ : BufTy).Contents (Elt Ideal))
    (x8 : (⟨S1, .f32⟩ : BufTy).Contents (Elt Ideal)) (p : Fin 100000) :
    val_main_v104 (F := Ideal) x0 x1 x2 x3 x4 x5 x6 x7 x8 (ix2 p (0 : Fin 1))
      = Ideal.logistic (val_main_v98 (F := Ideal) x0 x1 x2 x3 x4 x5 x6 x7 x8 (ix2 p (0 : Fin 1))) := by
  rw [val_main_v104_apply, val_main_v103_apply, val_main_cst_17_apply, val_main_v102_apply, val_main_v101_apply,
    val_main_cst_16_apply, val_main_v100_apply, val_main_v99_apply]
  generalize val_main_v98 (F := Ideal) x0 x1 x2 x3 x4 x5 x6 x7 x8 (ix2 p (0 : Fin 1)) = s
  rw [Ideal.ofBits_def, Ideal.ofBits_one_f32]
  rfl

/-- The joined array at a column k < 32 is the hidden features at column k. -/
theorem joined_left (x0 : (⟨S100000x128, .f32⟩ : BufTy).Contents (Elt Ideal)) (x1 : (⟨S2x3200000, .i32⟩ : BufTy).Contents (Elt Ideal))
    (x2 : (⟨S3200000, .f32⟩ : BufTy).Contents (Elt Ideal)) (x3 : (⟨S128x32, .f32⟩ : BufTy).Contents (Elt Ideal))
    (x4 : (⟨S32, .f32⟩ : BufTy).Contents (Elt Ideal)) (x5 : (⟨S32x16, .f32⟩ : BufTy).Contents (Elt Ideal))
    (x6 : (⟨S16, .f32⟩ : BufTy).Contents (Elt Ideal)) (x7 : (⟨S16x1, .f32⟩ : BufTy).Contents (Elt Ideal))
    (x8 : (⟨S1, .f32⟩ : BufTy).Contents (Elt Ideal)) (p : Fin 100000) (k : Fin 32) :
    val_main_v105 (F := Ideal) x0 x1 x2 x3 x4 x5 x6 x7 x8 (ix2 p k.castSucc) = val_main_v47 (F := Ideal) x0 x1 x2 x3 x4 (ix2 p k) := by
  unfold val_main_v105
  generalize val_main_v47 (F := Ideal) x0 x1 x2 x3 x4 = H
  generalize val_main_v104 (F := Ideal) x0 x1 x2 x3 x4 x5 x6 x7 x8 = C
  exact join_left H C _ p k

/-- The joined array at its last column is the logistic of the score. -/
theorem joined_last (x0 : (⟨S100000x128, .f32⟩ : BufTy).Contents (Elt Ideal)) (x1 : (⟨S2x3200000, .i32⟩ : BufTy).Contents (Elt Ideal))
    (x2 : (⟨S3200000, .f32⟩ : BufTy).Contents (Elt Ideal)) (x3 : (⟨S128x32, .f32⟩ : BufTy).Contents (Elt Ideal))
    (x4 : (⟨S32, .f32⟩ : BufTy).Contents (Elt Ideal)) (x5 : (⟨S32x16, .f32⟩ : BufTy).Contents (Elt Ideal))
    (x6 : (⟨S16, .f32⟩ : BufTy).Contents (Elt Ideal)) (x7 : (⟨S16x1, .f32⟩ : BufTy).Contents (Elt Ideal))
    (x8 : (⟨S1, .f32⟩ : BufTy).Contents (Elt Ideal)) (p : Fin 100000) :
    val_main_v105 (F := Ideal) x0 x1 x2 x3 x4 x5 x6 x7 x8 (ix2 p (Fin.last 32))
      = Ideal.logistic (val_main_v98 (F := Ideal) x0 x1 x2 x3 x4 x5 x6 x7 x8 (ix2 p (0 : Fin 1))) := by
  rw [← logistic_point]
  unfold val_main_v105
  generalize val_main_v47 (F := Ideal) x0 x1 x2 x3 x4 = H
  generalize val_main_v104 (F := Ideal) x0 x1 x2 x3 x4 x5 x6 x7 x8 = C
  exact join_right H C _ p

/-- The reference's second result is the specification's response of the score, the hidden features, the first 32
    rows and the last row of the 33×1 weight, and the 1×1 bias. -/
theorem resp_eq (x0 : (⟨S100000x128, .f32⟩ : BufTy).Contents (Elt Ideal)) (x1 : (⟨S2x3200000, .i32⟩ : BufTy).Contents (Elt Ideal))
    (x2 : (⟨S3200000, .f32⟩ : BufTy).Contents (Elt Ideal)) (x3 : (⟨S128x32, .f32⟩ : BufTy).Contents (Elt Ideal))
    (x4 : (⟨S32, .f32⟩ : BufTy).Contents (Elt Ideal)) (x5 : (⟨S32x16, .f32⟩ : BufTy).Contents (Elt Ideal))
    (x6 : (⟨S16, .f32⟩ : BufTy).Contents (Elt Ideal)) (x7 : (⟨S16x1, .f32⟩ : BufTy).Contents (Elt Ideal))
    (x8 : (⟨S1, .f32⟩ : BufTy).Contents (Elt Ideal))
    (x9 : (⟨S33x1, .f32⟩ : BufTy).Contents (Elt Ideal)) (x10 : (⟨S1, .f32⟩ : BufTy).Contents (Elt Ideal))
    (h0 : S33x1.Slices ![0, 0] (⟨2, ![32, 1]⟩ : Shape)) (h1 : S33x1.Slices ![32, 0] (⟨2, ![1, 1]⟩ : Shape)) :
    val_main_v109 (F := Ideal) x0 x1 x2 x3 x4 x5 x6 x7 x8 x9 x10
      = Cert.Spec.resp (val_main_v98 (F := Ideal) x0 x1 x2 x3 x4 x5 x6 x7 x8) (val_main_v47 (F := Ideal) x0 x1 x2 x3 x4)
          (extractStridedSlice (⟨2, ![32, 1]⟩ : Shape) ![0, 0] x9 h0)
          (extractStridedSlice (⟨2, ![1, 1]⟩ : Shape) ![32, 0] x9 h1) (val_main_v107 (F := Ideal) x10) := by
  funext i
  obtain ⟨p, z, rfl⟩ : ∃ (p : Fin 100000) (z : Fin 1), i = ix2 p z := ⟨i 0, i 1, eq_ix2 i⟩
  obtain rfl : z = 0 := Subsingleton.elim _ _
  rw [Cert.Spec.resp_apply, val_main_v109_apply, val_main_v106_apply, val_main_v108_apply, Ideal.addf_def, idx108_eq,
    Cert.Spec.sum_33]
  -- the first 32 terms: the hidden features at (p, k) times row k of the weight's first 32 rows
  have hl : ∀ k : Fin 32,
      val_main_v105 (F := Ideal) x0 x1 x2 x3 x4 x5 x6 x7 x8 (lidx_main_v106 (ix2 p (0 : Fin 1)) k.castSucc)
          * x9 (ridx_main_v106 (ix2 p (0 : Fin 1)) k.castSucc)
        = val_main_v47 (F := Ideal) x0 x1 x2 x3 x4 (ix2 p k)
          * extractStridedSlice (⟨2, ![32, 1]⟩ : Shape) ![0, 0] x9 h0 (ix2 k (0 : Fin 1)) := fun k => by
    rw [lidx106_eq, ridx106_eq, joined_left, rows_top]
  -- the last term: the logistic of the score at p times the weight's last row
  have hr : val_main_v105 (F := Ideal) x0 x1 x2 x3 x4 x5 x6 x7 x8 (lidx_main_v106 (ix2 p (0 : Fin 1)) (Fin.last 32))
          * x9 (ridx_main_v106 (ix2 p (0 : Fin 1)) (Fin.last 32))
        = Ideal.logistic (val_main_v98 (F := Ideal) x0 x1 x2 x3 x4 x5 x6 x7 x8 (ix2 p (0 : Fin 1)))
          * extractStridedSlice (⟨2, ![1, 1]⟩ : Shape) ![32, 0] x9 h1 (ix2 (0 : Fin 1) (0 : Fin 1)) := by
    rw [lidx106_eq, ridx106_eq, joined_last, rows_last]
  rw [Finset.sum_congr rfl fun k _ => hl k, hr]

end Cert.ReferenceIdeal.RefValue

end
-- ==== Proof.Bridge.lean ====
/-
  The idealized kernel's two results are the reference's two results, as functions of the arguments.

  At the end of the run the two result buffers hold what the readout head's region wrote: the score and the response of
  its operands (the value of that region). Its operands are, by the reading of the host operations before it, the
  reference's second-layer aggregate, hidden features, bias row, biases and weight slices of the same arguments; and the
  reference's own two results are the score and the response of exactly those stages. So the kernel's score is the
  reference's score and the kernel's response the reference's response, on all extended reals.
-/
import proofs.«176066_j26963804684652_1_alg».proof.Proof.KRun
import proofs.«176066_j26963804684652_1_alg».proof.Proof.HostValues
import proofs.«176066_j26963804684652_1_alg».proof.Proof.HeadRegion
import proofs.«176066_j26963804684652_1_alg».proof.Proof.RefHead

set_option maxRecDepth 16384

noncomputable section

namespace Cert.KernelIdeal.Bridge

open Cert.KernelIdeal Cert.KernelIdeal.Gen Cert.KernelIdeal.HostValue Cert.ReferenceIdeal.Read
open Idealize.ShloMosaic Idealize.ShloMosaic.TcCoe Idealize.SL.Sem

variable (m : (ℓ : Loc nD τ sig) → Buf (Elt Ideal) ℓ) (ρ : Dev nD → PrngReg)

/-- The second result, the score of every node, is the reference's. -/
theorem score_result (c : Dev nD) :
    W7 m ρ c (Proc.devRef .tc main_v71_1)
      = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W7_arr m ρ c 9).trans ?_
  rw [Cert.KernelIdeal.HeadValue.final9 (V6 m ρ) c]
  show Cert.Spec.score (W6 m ρ c (Proc.devRef .tc main_v65)) (W6 m ρ c (Proc.devRef .tc main_v66))
      (W6 m ρ c (Proc.devRef .tc main_arg7)) (W6 m ρ c (Proc.devRef .tc main_v67)) = _
  rw [w6_agg, w6_bias_row, w6_score_weight, w6_score_bias]
  exact (Cert.ReferenceIdeal.RefValue.score_eq _ _ _ _ _ _ _ _ _).symm

/-- The first result, the response of every node, is the reference's. -/
theorem response_result (c : Dev nD) :
    W7 m ρ c (Proc.devRef .tc main_v71_0)
      = val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W7_arr m ρ c 8).trans ?_
  rw [Cert.KernelIdeal.HeadValue.final8 (V6 m ρ) c]
  show Cert.Spec.resp (Cert.Spec.score (W6 m ρ c (Proc.devRef .tc main_v65)) (W6 m ρ c (Proc.devRef .tc main_v66))
      (W6 m ρ c (Proc.devRef .tc main_arg7)) (W6 m ρ c (Proc.devRef .tc main_v67)))
      (W6 m ρ c (Proc.devRef .tc main_v47)) (W6 m ρ c (Proc.devRef .tc main_v69)) (W6 m ρ c (Proc.devRef .tc main_v70))
      (W6 m ρ c (Proc.devRef .tc main_v68)) = _
  rw [w6_agg, w6_bias_row, w6_score_weight, w6_score_bias, w6_hidden, w6_weight_rows, w6_weight_last, w6_resp_bias]
  rw [← Cert.ReferenceIdeal.RefValue.score_eq]
  exact (Cert.ReferenceIdeal.RefValue.resp_eq _ _ _ _ _ _ _ _ _ _ _ slices_S33x1_S32x1_0_0 slices_S33x1_S1x1_32_0).symm

end Cert.KernelIdeal.Bridge

end
-- ==== Proof.lean ====
/-
  A two-layer graph convolution network with a readout head, as a kernel program and as a reference program: both, read
  over the extended reals, compute the same two arrays from the same arguments.

  The network. From the edge list (a source row and a target row of node numbers) and the edge weights come the weighted
  in-degree of every node plus one, its inverse square root, and for every edge the normalisation: that root at the
  source, times the weight, times that root at the target. A layer multiplies the node features by a weight matrix,
  sends along every edge the source's product row scaled by the edge's normalisation, adds what arrives at each node,
  adds the node's own product row divided by its degree, and adds a bias. The first layer is followed by the rectifier.
  The head takes the second layer's output to a score by a 16×1 weight and a bias, squashes the score by the logistic
  function, and forms the response from the hidden features by the first 32 rows of a 33×1 weight, plus the squashed
  score times the last row, plus a bias. The results are the response and the score of every node.

  The two programs differ in three ways, none of which changes a value over the extended reals. The kernel computes the
  two matrix products and the head in regions that work on blocks of 10000 rows, rounding their operands to a shorter
  float format first: a change of format is the identity on the extended reals, a product accumulated into zero is the
  plain sum over the contracted axis, and the blocks tile the arrays, so each region's output is the whole-array
  product (or the head's score and response). The reference joins the hidden features and the squashed score into 33
  columns and contracts them with the whole 33×1 weight: a sum of 33 terms is the sum of the first 32 and the last. And
  the reference spells the logistic function as 1 / (1 + exp(−x)), which is its definition. Sums of extended reals are
  associative and commutative at the infinities too, so nothing here asks for finite inputs: the precondition is not
  used by the value claim.

  The three frame claims are the generated frames of the two kernel programs and the reference's generated run with its
  results dropped. The idealization rewrote no operation, so nothing is to be preserved. The value claim puts the
  kernel's run, read at its two result buffers, beside the reference's run; both end at the reference's two result
  stages of the arguments, which agree by hypothesis.
-/
import proofs.«176066_j26963804684652_1_alg».proof.Defs
import proofs.«176066_j26963804684652_1_alg».proof.Proof.Gen.Kernel
import proofs.«176066_j26963804684652_1_alg».proof.Proof.Gen.Kernel.Skeleton
import proofs.«176066_j26963804684652_1_alg».proof.Proof.Gen.Kernel.Launch
import proofs.«176066_j26963804684652_1_alg».proof.Proof.Gen.Kernel.Points
import proofs.«176066_j26963804684652_1_alg».proof.Proof.Gen.Kernel.Frame
import proofs.«176066_j26963804684652_1_alg».proof.Proof.Gen.KernelIdeal
import proofs.«176066_j26963804684652_1_alg».proof.Proof.Gen.KernelIdeal.Skeleton
import proofs.«176066_j26963804684652_1_alg».proof.Proof.Gen.KernelIdeal.Launch
import proofs.«176066_j26963804684652_1_alg».proof.Proof.Gen.KernelIdeal.Points
import proofs.«176066_j26963804684652_1_alg».proof.Proof.Gen.KernelIdeal.Frame
import proofs.«176066_j26963804684652_1_alg».proof.Proof.Gen.ReferenceIdeal
import proofs.«176066_j26963804684652_1_alg».proof.Proof.Gen.Pre_finite_inputs
import proofs.«176066_j26963804684652_1_alg».proof.Proof.Gen.ReferenceIdeal.Run
import proofs.«176066_j26963804684652_1_alg».proof.Proof.Gen.ReferenceIdeal.Read
import proofs.«176066_j26963804684652_1_alg».proof.Proof.Bridge
import Idealize.ShloMosaic.Adequacy
import Idealize.ShloMosaic.Init

set_option maxRecDepth 16384

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The idealized reference runs and keeps its arguments: its run, with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote no operation: nothing to preserve. -/
theorem preserves : Cert.preserves_Kernel_KernelIdeal := trivial

/-- From memories that agree on the arguments both idealized programs run, keep their arguments, and end with the same
    response and the same score of every node: the reference's two result stages of the arguments. -/
theorem algebraic : Cert.algebraic_KernelIdeal_ReferenceIdeal := by
  intro m ρ m' ρ' _ hagree
  refine ⟨fun c => Cert.ReferenceIdeal.Read.val_main_v109 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Bridge.response_result m ρ c), (h c).2.1.trans (Cert.KernelIdeal.Bridge.score_result m ρ c), (h c).2.2⟩)
      (Cert.KernelIdeal.RunValue.run_results m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10⟩ := hagree c
      rw [Cert.ReferenceIdeal.Read.val_main_v109_eq, e0, e1, e2, e3, e4, e5, e6, e7, e8, e9, e10]
    · obtain ⟨e0, e1, e2, e3, e4, e5, e6, e7, e8, e9, e10⟩ := hagree c
      rw [Cert.ReferenceIdeal.Read.val_main_v98_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
